-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x3 : Shape := ⟨3, ![32, 2048, 3]⟩
abbrev S32x6 : Shape := ⟨2, ![32, 6]⟩
abbrev S32 : Shape := ⟨1, ![32]⟩
abbrev S_ : Shape := ⟨0, ![]⟩

class Facts : Prop where
  bcast_S_S32x2048x3 : S_.BroadcastsInDim S32x2048x3 (![] : Fin 0 → Fin S32x2048x3.rank)
  reducesTo_S32x2048x3_S_d0_1_2 : S32x2048x3.ReducesTo [0, 1, 2] S_
  h_S_ : 0 < S_.numel
  bcast_S_S32x6 : S_.BroadcastsInDim S32x6 (![] : Fin 0 → Fin S32x6.rank)
  reducesTo_S32x6_S_d0_1 : S32x6.ReducesTo [0, 1] S_

variable [Facts]

def fn {F : FTy → Type} [FloatOps F] (main_arg0 : FVec F S32x2048x3 .f32) (main_arg1 : FVec F S32x2048x3 .f32) (main_arg2 : FVec F S32x6 .f32) (main_arg3 : IVec S32 32) : IVec S_ 1 :=
  let main_v0 : FVec F S32x2048x3 .f32 := Host.absf main_arg0
  let main_cst : FVec F S_ .f32 := constant S_ .f32 0x7F800000#32
  let main_v1 : FVec F S32x2048x3 .f32 := broadcastInDim S32x2048x3 ![] bcast_S_S32x2048x3 main_cst
  let main_v2 : IVec S32x2048x3 1 := cmpf .olt main_v0 main_v1
  let main_c : IVec S_ 1 := constantI S_ 1 1#1
  let main_v3 : IVec S_ 1 := (fun x v => Host.reduce IntOp.andi x v reducesTo_S32x2048x3_S_d0_1_2 h_S_) main_v2 main_c
  let main_v4 : FVec F S32x2048x3 .f32 := Host.absf main_arg1
  let main_cst_0 : FVec F S_ .f32 := constant S_ .f32 0x7F800000#32
  let main_v5 : FVec F S32x2048x3 .f32 := broadcastInDim S32x2048x3 ![] bcast_S_S32x2048x3 main_cst_0
  let main_v6 : IVec S32x2048x3 1 := cmpf .olt main_v4 main_v5
  let main_c_1 : IVec S_ 1 := constantI S_ 1 1#1
  let main_v7 : IVec S_ 1 := (fun x v => Host.reduce IntOp.andi x v reducesTo_S32x2048x3_S_d0_1_2 h_S_) main_v6 main_c_1
  let main_v8 : IVec S_ 1 := andi main_v3 main_v7
  let main_v9 : FVec F S32x6 .f32 := Host.absf main_arg2
  let main_cst_2 : FVec F S_ .f32 := constant S_ .f32 0x7F800000#32
  let main_v10 : FVec F S32x6 .f32 := broadcastInDim S32x6 ![] bcast_S_S32x6 main_cst_2
  let main_v11 : IVec S32x6 1 := cmpf .olt main_v9 main_v10
  let main_c_3 : IVec S_ 1 := constantI S_ 1 1#1
  let main_v12 : IVec S_ 1 := (fun x v => Host.reduce IntOp.andi x v reducesTo_S32x6_S_d0_1 h_S_) main_v11 main_c_3
  let main_v13 : IVec S_ 1 := andi main_v8 main_v12
  main_v13
-- ==== Kernel.lean ====
abbrev S32x2048x3 : Shape := ⟨3, ![32, 2048, 3]⟩
abbrev S32x6 : Shape := ⟨2, ![32, 6]⟩
abbrev S32 : Shape := ⟨1, ![32]⟩
abbrev S32x3x2048 : Shape := ⟨3, ![32, 3, 2048]⟩
abbrev S32x1x128 : Shape := ⟨3, ![32, 1, 128]⟩
abbrev S1x512x3 : Shape := ⟨3, ![1, 512, 3]⟩
abbrev S1x3x2048 : Shape := ⟨3, ![1, 3, 2048]⟩
abbrev S1x1x128 : Shape := ⟨3, ![1, 1, 128]⟩
abbrev S1x2048 : Shape := ⟨2, ![1, 2048]⟩
abbrev S1x1 : Shape := ⟨2, ![1, 1]⟩
abbrev S512x3 : Shape := ⟨2, ![512, 3]⟩
abbrev S3x2048 : Shape := ⟨2, ![3, 2048]⟩
abbrev S512x1 : Shape := ⟨2, ![512, 1]⟩
abbrev S512x2048 : Shape := ⟨2, ![512, 2048]⟩
abbrev S512 : Shape := ⟨1, ![512]⟩
abbrev S2048 : Shape := ⟨1, ![2048]⟩
abbrev S1 : Shape := ⟨1, ![1]⟩
abbrev S1x128 : Shape := ⟨2, ![1, 128]⟩
abbrev S32x128 : Shape := ⟨2, ![32, 128]⟩
abbrev S32x1 : Shape := ⟨2, ![32, 1]⟩
abbrev S_ : Shape := ⟨0, ![]⟩
abbrev S32x1x1 : Shape := ⟨3, ![32, 1, 1]⟩
abbrev S1x1x1 : Shape := ⟨3, ![1, 1, 1]⟩

abbrev nBuf : Space → Nat
  | .hbm => 69
  | .vmem => 8
  | .smem => 0
  | _ => 0

abbrev bufTy : (tb : Table) → Fin (tcTables nBuf tb) → BufTy
  | .hbm, ⟨0, _⟩ => ⟨S32x2048x3, .f32⟩
  | .hbm, ⟨1, _⟩ => ⟨S32x2048x3, .f32⟩
  | .hbm, ⟨2, _⟩ => ⟨S32x6, .f32⟩
  | .hbm, ⟨3, _⟩ => ⟨S32, .i32⟩
  | .hbm, ⟨4, _⟩ => ⟨S32x3x2048, .f32⟩
  | .hbm, ⟨5, _⟩ => ⟨S32x1x128, .f32⟩
  | .hbm, ⟨6, _⟩ => ⟨S32x128, .f32⟩
  | .hbm, ⟨7, _⟩ => ⟨S32x1, .f32⟩
  | .hbm, ⟨8, _⟩ => ⟨S32, .f32⟩
  | .hbm, ⟨9, _⟩ => ⟨S_, .f32⟩
  | .hbm, ⟨10, _⟩ => ⟨S_, .f32⟩
  | .hbm, ⟨11, _⟩ => ⟨S32x1, .f32⟩
  | .hbm, ⟨12, _⟩ => ⟨S32, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32x1, .f32⟩
  | .hbm, ⟨26, _⟩ => ⟨S32x6, .f32⟩
  | .hbm, ⟨27, _⟩ => ⟨S32x6, .f32⟩
  | .hbm, ⟨28, _⟩ => ⟨S32x6, .f32⟩
  | .hbm, ⟨29, _⟩ => ⟨S_, .f32⟩
  | .hbm, ⟨30, _⟩ => ⟨S32, .f32⟩
  | .hbm, ⟨31, _⟩ => ⟨S32x1, .f32⟩
  | .hbm, ⟨32, _⟩ => ⟨S32x1, .f32⟩
  | .hbm, ⟨33, _⟩ => ⟨S32x6, .f32⟩
  | .hbm, ⟨34, _⟩ => ⟨S32x6, .f32⟩
  | .hbm, ⟨35, _⟩ => ⟨S32x1, .i32⟩
  | .hbm, ⟨36, _⟩ => ⟨S_, .i32⟩
  | .hbm, ⟨37, _⟩ => ⟨S32x1, .i32⟩
  | .hbm, ⟨38, _⟩ => ⟨S32x1, .i1⟩
  | .hbm, ⟨39, _⟩ => ⟨S_, .i32⟩
  | .hbm, ⟨40, _⟩ => ⟨S32x1, .i32⟩
  | .hbm, ⟨41, _⟩ => ⟨S32x1, .i32⟩
  | .hbm, ⟨42, _⟩ => ⟨S32x1, .i32⟩
  | .hbm, ⟨43, _⟩ => ⟨S32x1x1, .i32⟩
  | .hbm, ⟨44, _⟩ => ⟨S1, .i32⟩
  | .hbm, ⟨45, _⟩ => ⟨S_, .i32⟩
  | .hbm, ⟨46, _⟩ => ⟨S32x1x1, .i32⟩
  | .hbm, ⟨47, _⟩ => ⟨S32x1x1, .i1⟩
  | .hbm, ⟨48, _⟩ => ⟨S1x1x1, .i32⟩
  | .hbm, ⟨49, _⟩ => ⟨S32x1x1, .i32⟩
  | .hbm, ⟨50, _⟩ => ⟨S32x1x1, .i1⟩
  | .hbm, ⟨51, _⟩ => ⟨S32x1x1, .i1⟩
  | .hbm, ⟨52, _⟩ => ⟨S_, .i1⟩
  | .hbm, ⟨53, _⟩ => ⟨S32x1, .i1⟩
  | .hbm, ⟨54, _⟩ => ⟨S32x1, .f32⟩
  | .hbm, ⟨55, _⟩ => ⟨S_, .f32⟩
  | .hbm, ⟨56, _⟩ => ⟨S32x1, .f32⟩
  | .hbm, ⟨57, _⟩ => ⟨S32x1, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1x128, .f32⟩
  | .local _ .vmem, ⟨5, _⟩ => ⟨S1x1x128, .f32⟩
  | .local _ .vmem, ⟨6, _⟩ => ⟨S1x2048, .f32⟩
  | .local _ .vmem, ⟨7, _⟩ => ⟨S1x1, .f32⟩
  | _, _ => ⟨S32x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_call0_cst_0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_cst_1 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_v12 : Ref sig .tc := ⟨.hbm, 34, rfl⟩
abbrev main_v13 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_cst_3 : Ref sig .tc := ⟨.hbm, 60, rfl⟩
abbrev main_v17 : Ref sig .tc := ⟨.hbm, 61, rfl⟩
abbrev main_cst_4 : Ref sig .tc := ⟨.hbm, 62, rfl⟩
abbrev main_v18 : Ref sig .tc := ⟨.hbm, 63, rfl⟩
abbrev main_cst_5 : Ref sig .tc := ⟨.hbm, 64, rfl⟩
abbrev main_v19 : Ref sig .tc := ⟨.hbm, 65, rfl⟩
abbrev main_cst_6 : Ref sig .tc := ⟨.hbm, 66, rfl⟩
abbrev main_v20 : Ref sig .tc := ⟨.hbm, 67, rfl⟩
abbrev main_v21 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32 : BitVec 32 := 3#32
  let v45 : BitVec 1 := Scalar.cmpi .eq arg1 c3_i32
  let v46 : BitVec 32 := Scalar.extui v45
  let c0_i32_13 : BitVec 32 := 0#32
  let v47 : BitVec 1 := Scalar.cmpi .ne v46 c0_i32_13
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S32x2048x3_S32x3x2048_0_2_1 : S32x2048x3.Transposes [0, 2, 1] S32x3x2048
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  slices_S512x3_o0_0_S512x1 : S512x3.Slices ![0, 0] S512x1
  slices_S512x3_o0_1_S512x1 : S512x3.Slices ![0, 1] S512x1
  slices_S512x3_o0_2_S512x1 : S512x3.Slices ![0, 2] S512x1
  slices_S3x2048_o0_0_S1x2048 : S3x2048.Slices ![0, 0] S1x2048
  slices_S3x2048_o1_0_S1x2048 : S3x2048.Slices ![1, 0] S1x2048
  slices_S3x2048_o2_0_S1x2048 : S3x2048.Slices ![2, 0] S1x2048
  broadcasts_S512x1_S512x2048 : S512x1.Broadcasts S512x2048
  broadcasts_S1x2048_S512x2048 : S1x2048.Broadcasts S512x2048
  reduces_S512x3_S512 : S512x3.Reduces [1] S512
  shapeCasts_S512_S512x1 : S512.ShapeCasts S512x1
  reduces_S3x2048_S2048 : S3x2048.Reduces [0] S2048
  shapeCasts_S2048_S1x2048 : S2048.ShapeCasts S1x2048
  reduces_S512x2048_S512 : S512x2048.Reduces [1] S512
  reduces_S512x2048_S2048 : S512x2048.Reduces [0] S2048
  reduces_S512x1_S1 : S512x1.Reduces [0] S1
  shapeCasts_S1_S1x1 : S1.ShapeCasts S1x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S1x2048_S1 : S1x2048.Reduces [1] S1
  iota_S1x128_d1_w32 : S1x128.Iotas .tc 32 [1]
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S32x1x128_S32x128 : S32x1x128.ShapeCasts S32x128
  slices_S32x128_S32x1_0_0 : S32x128.Slices ![0, 0] S32x1
  shapeCasts_S32x1_S32 : S32x1.ShapeCasts S32
  reducesTo_S32_S_d0 : S32.ReducesTo [0] S_
  h_S_ : 0 < S_.numel
  slices_S32x128_S32x1_0_1 : S32x128.Slices ![0, 1] S32x1
  reducesTo_S32x6_S32_d1 : S32x6.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x6_0_1 : S32x1.BroadcastsInDim S32x6 (![0, 1] : Fin 2 → Fin S32x6.rank)
  bcast_S_S32x1 : S_.BroadcastsInDim S32x1 (![] : Fin 0 → Fin S32x1.rank)
  shapeCasts_S32x1_S32x1x1 : S32x1.ShapeCasts S32x1x1
  bcast_S_S32x1x1 : S_.BroadcastsInDim S32x1x1 (![] : Fin 0 → Fin S32x1x1.rank)
  bcast_S1_S1x1x1_2 : S1.BroadcastsInDim S1x1x1 (![2] : Fin 1 → Fin S1x1x1.rank)
  bcast_S1x1x1_S32x1x1_0_1_2 : S1x1x1.BroadcastsInDim S32x1x1 (![0, 1, 2] : Fin 3 → Fin S32x1x1.rank)
  reducesTo_S32x1x1_S32x1_d2 : S32x1x1.ReducesTo [2] S32x1
  gather_S32x6_S32x1x1_S32x1_n_1_0_0_1_2_11_wf : GatherDims.WF S32x6 S32x1x1 S32x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S32x2048x3.size a
  hwx0_0 : ∀ i : grid0.Coords, EltTy.bits .f32 = 32 ∨ (Rect.block (s := S32x2048x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S32x3x2048.size a
  hwx0_1 : ∀ i : grid0.Coords, EltTy.bits .f32 = 32 ∨ (Rect.block (s := S32x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S32x1x128.size a
  hwx0_2 : ∀ i : grid0.Coords, EltTy.bits .f32 = 32 ∨ (Rect.block (s := S32x1x128) S1x1x128.size (cc0_transform_2 i) (hinb0_2 i)).WholeWords (EltTy.packing .f32)

variable [Facts₀]

def gather_S32x6_S32x1x1_S32x1_n_1_0_0_1_2_11 : GatherDims S32x6 S32x1x1 S32x1 where
  offsetDims := []
  collapsedSliceDims := [1]
  operandBatchingDims := [0]
  startIndicesBatchingDims := [0]
  startIndexMap := [1]
  indexVectorDim := 2
  sliceSizes := ![1, 1]
  wf := gather_S32x6_S32x1x1_S32x1_n_1_0_0_1_2_11_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S32x2048x3 : Shape := ⟨3, ![32, 2048, 3]⟩
abbrev S32x6 : Shape := ⟨2, ![32, 6]⟩
abbrev S32 : Shape := ⟨1, ![32]⟩
abbrev S_ : Shape := ⟨0, ![]⟩
abbrev S32x2048 : Shape := ⟨2, ![32, 2048]⟩
abbrev S32x2048x2048 : Shape := ⟨3, ![32, 2048, 2048]⟩
abbrev S32x2048x1 : Shape := ⟨3, ![32, 2048, 1]⟩
abbrev S32x1x2048 : Shape := ⟨3, ![32, 1, 2048]⟩
abbrev S32x1 : Shape := ⟨2, ![32, 1]⟩
abbrev S32x1x1 : Shape := ⟨3, ![32, 1, 1]⟩
abbrev S1 : Shape := ⟨1, ![1]⟩
abbrev S1x1x1 : Shape := ⟨3, ![1, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S32x2048x3, .f32⟩
  | .hbm, ⟨1, _⟩ => ⟨S32x2048x3, .f32⟩
  | .hbm, ⟨2, _⟩ => ⟨S32x6, .f32⟩
  | .hbm, ⟨3, _⟩ => ⟨S32, .i32⟩
  | .hbm, ⟨4, _⟩ => ⟨S32x2048x3, .f32⟩
  | .hbm, ⟨5, _⟩ => ⟨S_, .f32⟩
  | .hbm, ⟨6, _⟩ => ⟨S32x2048, .f32⟩
  | .hbm, ⟨7, _⟩ => ⟨S32x2048x3, .f32⟩
  | .hbm, ⟨8, _⟩ => ⟨S_, .f32⟩
  | .hbm, ⟨9, _⟩ => ⟨S32x2048, .f32⟩
  | .hbm, ⟨10, _⟩ => ⟨S32x2048x2048, .f32⟩
  | .hbm, ⟨11, _⟩ => ⟨S32x2048x1, .f32⟩
  | .hbm, ⟨12, _⟩ => ⟨S32x1x2048, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048x2048, .f32⟩
  | .hbm, ⟨18, _⟩ => ⟨S32x2048x2048, .f32⟩
  | .hbm, ⟨19, _⟩ => ⟨S32x2048x2048, .f32⟩
  | .hbm, ⟨20, _⟩ => ⟨S_, .f32⟩
  | .hbm, ⟨21, _⟩ => ⟨S32x2048, .f32⟩
  | .hbm, ⟨22, _⟩ => ⟨S_, .f32⟩
  | .hbm, ⟨23, _⟩ => ⟨S32x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S32x1, .f32⟩
  | .hbm, ⟨39, _⟩ => ⟨S32x6, .f32⟩
  | .hbm, ⟨40, _⟩ => ⟨S32x6, .f32⟩
  | .hbm, ⟨41, _⟩ => ⟨S32x6, .f32⟩
  | .hbm, ⟨42, _⟩ => ⟨S_, .f32⟩
  | .hbm, ⟨43, _⟩ => ⟨S32, .f32⟩
  | .hbm, ⟨44, _⟩ => ⟨S32x1, .f32⟩
  | .hbm, ⟨45, _⟩ => ⟨S32x1, .f32⟩
  | .hbm, ⟨46, _⟩ => ⟨S32x6, .f32⟩
  | .hbm, ⟨47, _⟩ => ⟨S32x6, .f32⟩
  | .hbm, ⟨48, _⟩ => ⟨S32x1, .i32⟩
  | .hbm, ⟨49, _⟩ => ⟨S_, .i32⟩
  | .hbm, ⟨50, _⟩ => ⟨S32x1, .i32⟩
  | .hbm, ⟨51, _⟩ => ⟨S32x1, .i1⟩
  | .hbm, ⟨52, _⟩ => ⟨S_, .i32⟩
  | .hbm, ⟨53, _⟩ => ⟨S32x1, .i32⟩
  | .hbm, ⟨54, _⟩ => ⟨S32x1, .i32⟩
  | .hbm, ⟨55, _⟩ => ⟨S32x1, .i32⟩
  | .hbm, ⟨56, _⟩ => ⟨S32x1x1, .i32⟩
  | .hbm, ⟨57, _⟩ => ⟨S1, .i32⟩
  | .hbm, ⟨58, _⟩ => ⟨S_, .i32⟩
  | .hbm, ⟨59, _⟩ => ⟨S32x1x1, .i32⟩
  | .hbm, ⟨60, _⟩ => ⟨S32x1x1, .i1⟩
  | .hbm, ⟨61, _⟩ => ⟨S1x1x1, .i32⟩
  | .hbm, ⟨62, _⟩ => ⟨S32x1x1, .i32⟩
  | .hbm, ⟨63, _⟩ => ⟨S32x1x1, .i1⟩
  | .hbm, ⟨64, _⟩ => ⟨S32x1x1, .i1⟩
  | .hbm, ⟨65, _⟩ => ⟨S_, .i1⟩
  | .hbm, ⟨66, _⟩ => ⟨S32x1, .i1⟩
  | .hbm, ⟨67, _⟩ => ⟨S32x1, .f32⟩
  | .hbm, ⟨68, _⟩ => ⟨S_, .f32⟩
  | .hbm, ⟨69, _⟩ => ⟨S32x1, .f32⟩
  | .hbm, ⟨70, _⟩ => ⟨S32x1, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S32x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_cst_1 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_v20 : Ref sig .tc := ⟨.hbm, 47, rfl⟩
abbrev main_v21 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_cst : Ref sig .tc := ⟨.hbm, 68, rfl⟩
abbrev main_call1_v14 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_cst_8 : Ref sig .tc := ⟨.hbm, 73, rfl⟩
abbrev main_v25 : Ref sig .tc := ⟨.hbm, 74, rfl⟩
abbrev main_cst_9 : Ref sig .tc := ⟨.hbm, 75, rfl⟩
abbrev main_v26 : Ref sig .tc := ⟨.hbm, 76, rfl⟩
abbrev main_cst_10 : Ref sig .tc := ⟨.hbm, 77, rfl⟩
abbrev main_v27 : Ref sig .tc := ⟨.hbm, 78, rfl⟩
abbrev main_cst_11 : Ref sig .tc := ⟨.hbm, 79, rfl⟩
abbrev main_v28 : Ref sig .tc := ⟨.hbm, 80, rfl⟩
abbrev main_v29 : Ref sig .tc := ⟨.hbm, 81, rfl⟩

abbrev nD : Nat := 1
abbrev τ : Topo := Topo.v7x

variable {F : FTy → Type} [FloatOps F]

class Facts₀ : Prop where
  reducesTo_S32x2048x3_S32x2048_d2 : S32x2048x3.ReducesTo [2] S32x2048
  h_S_ : 0 < S_.numel
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  reducesTo_S32x2048x2048_S32x2048_d2 : S32x2048x2048.ReducesTo [2] S32x2048
  reducesTo_S32x2048x2048_S32x2048_d1 : S32x2048x2048.ReducesTo [1] S32x2048
  reducesTo_S32x2048_S_d0_1 : S32x2048.ReducesTo [0, 1] S_
  reducesTo_S32x6_S32_d1 : S32x6.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x6_0_1 : S32x1.BroadcastsInDim S32x6 (![0, 1] : Fin 2 → Fin S32x6.rank)
  bcast_S_S32x1 : S_.BroadcastsInDim S32x1 (![] : Fin 0 → Fin S32x1.rank)
  shapeCasts_S32x1_S32x1x1 : S32x1.ShapeCasts S32x1x1
  bcast_S_S32x1x1 : S_.BroadcastsInDim S32x1x1 (![] : Fin 0 → Fin S32x1x1.rank)
  bcast_S1_S1x1x1_2 : S1.BroadcastsInDim S1x1x1 (![2] : Fin 1 → Fin S1x1x1.rank)
  bcast_S1x1x1_S32x1x1_0_1_2 : S1x1x1.BroadcastsInDim S32x1x1 (![0, 1, 2] : Fin 3 → Fin S32x1x1.rank)
  reducesTo_S32x1x1_S32x1_d2 : S32x1x1.ReducesTo [2] S32x1
  shapeCasts_S32x1_S32 : S32x1.ShapeCasts S32
  reducesTo_S32_S_d0 : S32.ReducesTo [0] S_
  dot_S32x2048x3_S32x2048x3_S32x2048x2048_2_2_1_1_0_0_wf : DotDims.WF S32x2048x3 S32x2048x3 S32x2048x2048 [2] [2] [1] [1] [0] [0]
  gather_S32x6_S32x1x1_S32x1_n_1_0_0_1_2_11_wf : GatherDims.WF S32x6 S32x1x1 S32x1 [] [1] [0] [1] [0] 2 ![1, 1]

variable [Facts₀]

def dot_S32x2048x3_S32x2048x3_S32x2048x2048_2_2_1_1_0_0 : DotDims S32x2048x3 S32x2048x3 S32x2048x2048 where
  lhsContracting := [2]
  rhsContracting := [2]
  lhsNonContracting := [1]
  rhsNonContracting := [1]
  lhsBatch := [0]
  rhsBatch := [0]
  wf := dot_S32x2048x3_S32x2048x3_S32x2048x2048_2_2_1_1_0_0_wf
def gather_S32x6_S32x1x1_S32x1_n_1_0_0_1_2_11 : GatherDims S32x6 S32x1x1 S32x1 where
  offsetDims := []
  collapsedSliceDims := [1]
  operandBatchingDims := [0]
  startIndicesBatchingDims := [0]
  startIndexMap := [1]
  indexVectorDim := 2
  sliceSizes := ![1, 1]
  wf := gather_S32x6_S32x1x1_S32x1_n_1_0_0_1_2_11_wf

class Facts : Prop extends Facts₀ where

variable [Facts]
-- ==== Proof.BodyBShared.lean ====
/-
  The grid is 32 batches by 4 tiles of 512 query points, the tile index innermost. The body branches three times on
  the tile index alone: at the first tile it RESETS the two carried buffers (the running column minimum, one row of 2048
  numbers, and the running sum of row minima, one number); at every later tile it UPDATES them; at the last tile it also
  writes the batch's output row. Here: the three conditions as the body computes them, decided over the 128 points;
  where the output window is idle; and the staging and carried buffers as the pipeline hands them to the body.
-/
import proofs.«109606_j62749472194941_2_alg».proof.Proof.Gen.Kernel.Frame
import proofs.«109606_j62749472194941_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- "This is the batch's first tile", as the body computes it from the tile coordinate. -/
abbrev condA (i : grid0.Coords) : Prop :=
  (Scalar.cmpi .ne (Scalar.extui (Scalar.cmpi .eq (BitVec.ofNat 32 (i 1).val) 0#32)) 0#32) = 1#1
/-- It holds at the points whose position is a multiple of 4. -/
theorem hcondA : ∀ t : Fin cfg0.N, condA (grid0.coords t) ↔ t.val % 4 = 0 :=
  (by decide +kernel : ∀ t : Fin grid0.N, condA (grid0.coords t) ↔ t.val % 4 = 0)

/-- "This is not the batch's first tile", as the body computes it. -/
abbrev condB (i : grid0.Coords) : Prop :=
  (Scalar.cmpi .ne (Scalar.extui (Scalar.cmpi .ne (BitVec.ofNat 32 (i 1).val) 0#32)) 0#32) = 1#1
/-- It holds at the points whose position is no multiple of 4. -/
theorem hcondB : ∀ t : Fin cfg0.N, condB (grid0.coords t) ↔ ¬ t.val % 4 = 0 :=
  (by decide +kernel : ∀ t : Fin grid0.N, condB (grid0.coords t) ↔ ¬ t.val % 4 = 0)

/-- "This is the batch's last tile", as the body computes it. -/
abbrev condC (i : grid0.Coords) : Prop := k0_cond3 i = 1#1
/-- It holds at the points whose position is 3 modulo 4. -/
theorem hcondC : ∀ t : Fin cfg0.N, condC (grid0.coords t) ↔ t.val % 4 = 3 :=
  (by decide +kernel : ∀ t : Fin grid0.N, condC (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- Away from a last tile the output row is not stored: its window is idle there, -/
theorem idleAt2 : ∀ t : Fin cfg0.N, ¬condC (grid0.coords t) → cfg0.idle 2 (grid0.coords t) = true := by decide +kernel
/-- and nothing is written back. -/
theorem noFlush2 : ∀ t : Fin cfg0.N, ¬condC (grid0.coords t) → (cfg0.win 2).flush t = false := by decide +kernel
/-- At a last tile the output row is stored. -/
theorem liveAt2 : ∀ t : Fin cfg0.N, condC (grid0.coords t) → cfg0.idle 2 (grid0.coords t) = false := by decide +kernel

/-! ## The buffers the body is handed -/

/-- One staging buffer of the output window, through which its contents are stated. -/
abbrev VO2 : View sig .tc .vmem S1x1x128 .f32 := (Memref.whole cc0_stg2_0 : Memref sig .tc .vmem S1x1x128 .f32).view
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x128 .f32 := win0_2.stage (cfg0.slots t 2)
abbrev hs2 (t : Fin cfg0.N) : (ms2 t).IsWhole := hstage0_2 ((cfg0.slots t 2).cast nbuf0_2)
/-- The running column minimum (one row of 2048 numbers) and the running sum of row minima (one number). -/
abbrev scM0 : Memref sig .tc .vmem S1x2048 .f32 := Memref.whole cc0_scratch0
abbrev scM1 : Memref sig .tc .vmem S1x1 .f32 := Memref.whole cc0_scratch1
abbrev VS0 : View sig .tc .vmem S1x2048 .f32 := scM0.view
abbrev VS1 : View sig .tc .vmem S1x1 .f32 := scM1.view

/-- What the region may use beside its windows: the two carried buffers, each at some contents, and the generator
    register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.Kernel.Body

end
-- ==== Proof.BodyBRunA.lean ====
/-
  The body at a batch's FIRST tile: it reads the two input blocks, and stores into the two carried buffers (whatever
  they held) the tile's column minima and the tile's sum of row minima; the output row's buffer is left as it was.
-/
import proofs.«109606_j62749472194941_2_alg».proof.Proof.BodyBShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two carried buffers at a first tile, with the run that finds them: from
    the inputs' buffers at their contents, the output's at contents handed back untouched, the carried buffers at
    anything, the body runs to a continuation holding the inputs' and the output's as they were and each carried
    buffer with its pieces written. -/
noncomputable def kernelRunA (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : condA i) (hcB : ¬condB i) (hcC : ¬condC i)
    (x0 : Vec F S1x512x3 .f32) (x1 : Vec F S1x3x2048 .f32) :
    Σ' (LS0 : List (View.Piece (Elt F) S1x2048 .f32)), { LS1 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi2 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hcA | exact hcB | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Body

end
-- ==== Proof.BodyBRunB.lean ====
/-
  The body at a tile that is neither a batch's first nor its last: it reads the two input blocks and the two carried
  buffers, and stores back the elementwise minimum of the carried row with the tile's column minima, and the carried sum
  plus the tile's sum of row minima; the output row's buffer is left as it was.
-/
import proofs.«109606_j62749472194941_2_alg».proof.Proof.BodyBRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two carried buffers at a middle tile, with the run that finds them: the
    carried buffers come in at the contents the tile before left. -/
noncomputable def kernelRunB (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : ¬condC i)
    (x0 : Vec F S1x512x3 .f32) (x1 : Vec F S1x3x2048 .f32) (xs0 : Vec F S1x2048 .f32) (xs1 : Vec F S1x1 .f32) :
    Σ' (LS0 : List (View.Piece (Elt F) S1x2048 .f32)), { LS1 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi2 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hcA | exact hcB | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Body

end
-- ==== Proof.BodyBRunC.lean ====
/-
  The body at a batch's LAST tile: it updates the two carried buffers as at a middle tile, then reads them back and
  stores the output row: lane 0 the carried sum of row minima, lane 1 the sum of the carried column minima, the other
  lanes zero.
-/
import proofs.«109606_j62749472194941_2_alg».proof.Proof.BodyBRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output row's buffer and in the two carried buffers at a last tile, with
    the run that finds them: the output's buffer comes in at anything. -/
noncomputable def kernelRunC (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) :
    Σ' (L2 : List (View.Piece (Elt F) S1x1x128 .f32)) (LS0 : List (View.Piece (Elt F) S1x2048 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hcA | exact hcB | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Body

end
-- ==== Proof.BodyBFrame.lean ====
/-
  The frame of the program: what the two carried buffers and the output row's buffer hold after every grid point, by
  recursion on the point (a first tile resets the carried buffers from the tile alone; a later tile updates what the
  tile before left; a last tile also stores the output row); the region's invariant, which carries the two buffers'
  contents from point to point; the body at every point, by cases on the tile; and the run of the whole program.
-/
import proofs.«109606_j62749472194941_2_alg».proof.Proof.BodyBRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point, from its position -/

theorem A_of (t : Fin cfg0.N) (h0 : t.val % 4 = 0) : condA (grid0.coords t) := (hcondA t).mpr h0
theorem notB_of (t : Fin cfg0.N) (h0 : t.val % 4 = 0) : ¬condB (grid0.coords t) := fun h => (hcondB t).mp h h0
theorem notC_of0 (t : Fin cfg0.N) (h0 : t.val % 4 = 0) : ¬condC (grid0.coords t) := fun h => by have := (hcondC t).mp h; omega
theorem notA_of (t : Fin cfg0.N) (h0 : ¬t.val % 4 = 0) : ¬condA (grid0.coords t) := fun h => h0 ((hcondA t).mp h)
theorem B_of (t : Fin cfg0.N) (h0 : ¬t.val % 4 = 0) : condB (grid0.coords t) := (hcondB t).mpr h0
theorem C_of (t : Fin cfg0.N) (h3 : t.val % 4 = 3) : condC (grid0.coords t) := (hcondC t).mpr h3
theorem notC_of (t : Fin cfg0.N) (h3 : ¬t.val % 4 = 3) : ¬condC (grid0.coords t) := fun h => h3 ((hcondC t).mp h)

/-! ## What each case leaves -/

/-- At a first tile the stores into the running column minimum cover it. -/
theorem scoverA_0 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : condA i) (hcB : ¬condB i) (hcC : ¬condC i)
    (x0 : Vec F S1x512x3 .f32) (x1 : Vec F S1x3x2048 .f32) (y : S1x2048.Idx) :
    ∃ pc ∈ (kernelRunA c i arg2 harg2 arg3 harg3 arg4 harg4 arg5 harg5 arg6 harg6 hcA hcB hcC x0 x1).1, y ∈ pc.1.set :=
  View.cover_of_tiledL (kernelRunA c i arg2 harg2 arg3 harg3 arg4 harg4 arg5 harg5 arg6 harg6 hcA hcB hcC x0 x1).1 S1x2048.size (by sl_kernel_rfl) y
/-- What a first tile leaves in the running column minimum. -/
def soutA_0 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : condA i) (hcB : ¬condB i) (hcC : ¬condC i)
    (x0 : Vec F S1x512x3 .f32) (x1 : Vec F S1x3x2048 .f32) : Vec F S1x2048 .f32 :=
  VS0.read (Elt F) (VS0.writes (Elt F) VS0.junk (kernelRunA c i arg2 harg2 arg3 harg3 arg4 harg4 arg5 harg5 arg6 harg6 hcA hcB hcC x0 x1).1)
/-- At a first tile the store into the running sum covers it. -/
theorem scoverA_1 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : condA i) (hcB : ¬condB i) (hcC : ¬condC i)
    (x0 : Vec F S1x512x3 .f32) (x1 : Vec F S1x3x2048 .f32) (y : S1x1.Idx) :
    ∃ pc ∈ (kernelRunA c i arg2 harg2 arg3 harg3 arg4 harg4 arg5 harg5 arg6 harg6 hcA hcB hcC x0 x1).2.1, y ∈ pc.1.set :=
  View.cover_of_tiledL (kernelRunA c i arg2 harg2 arg3 harg3 arg4 harg4 arg5 harg5 arg6 harg6 hcA hcB hcC x0 x1).2.1 S1x1.size (by sl_kernel_rfl) y
/-- What a first tile leaves in the running sum. -/
def soutA_1 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : condA i) (hcB : ¬condB i) (hcC : ¬condC i)
    (x0 : Vec F S1x512x3 .f32) (x1 : Vec F S1x3x2048 .f32) : Vec F S1x1 .f32 :=
  VS1.read (Elt F) (VS1.writes (Elt F) VS1.junk (kernelRunA c i arg2 harg2 arg3 harg3 arg4 harg4 arg5 harg5 arg6 harg6 hcA hcB hcC x0 x1).2.1)

theorem scoverB_0 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : ¬condC i)
    (x0 : Vec F S1x512x3 .f32) (x1 : Vec F S1x3x2048 .f32) (xs0 : Vec F S1x2048 .f32) (xs1 : Vec F S1x1 .f32) (y : S1x2048.Idx) :
    ∃ pc ∈ (kernelRunB c i arg2 harg2 arg3 harg3 arg4 harg4 arg5 harg5 arg6 harg6 hcA hcB hcC x0 x1 xs0 xs1).1, y ∈ pc.1.set :=
  View.cover_of_tiledL (kernelRunB c i arg2 harg2 arg3 harg3 arg4 harg4 arg5 harg5 arg6 harg6 hcA hcB hcC x0 x1 xs0 xs1).1 S1x2048.size (by sl_kernel_rfl) y
/-- What a middle tile leaves in the running column minimum, from what the tile before left. -/
def soutB_0 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : ¬condC i)
    (x0 : Vec F S1x512x3 .f32) (x1 : Vec F S1x3x2048 .f32) (xs0 : Vec F S1x2048 .f32) (xs1 : Vec F S1x1 .f32) : Vec F S1x2048 .f32 :=
  VS0.read (Elt F) (VS0.writes (Elt F) VS0.junk (kernelRunB c i arg2 harg2 arg3 harg3 arg4 harg4 arg5 harg5 arg6 harg6 hcA hcB hcC x0 x1 xs0 xs1).1)
theorem scoverB_1 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : ¬condC i)
    (x0 : Vec F S1x512x3 .f32) (x1 : Vec F S1x3x2048 .f32) (xs0 : Vec F S1x2048 .f32) (xs1 : Vec F S1x1 .f32) (y : S1x1.Idx) :
    ∃ pc ∈ (kernelRunB c i arg2 harg2 arg3 harg3 arg4 harg4 arg5 harg5 arg6 harg6 hcA hcB hcC x0 x1 xs0 xs1).2.1, y ∈ pc.1.set :=
  View.cover_of_tiledL (kernelRunB c i arg2 harg2 arg3 harg3 arg4 harg4 arg5 harg5 arg6 harg6 hcA hcB hcC x0 x1 xs0 xs1).2.1 S1x1.size (by sl_kernel_rfl) y
/-- What a middle tile leaves in the running sum. -/
def soutB_1 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : ¬condC i)
    (x0 : Vec F S1x512x3 .f32) (x1 : Vec F S1x3x2048 .f32) (xs0 : Vec F S1x2048 .f32) (xs1 : Vec F S1x1 .f32) : Vec F S1x1 .f32 :=
  VS1.read (Elt F) (VS1.writes (Elt F) VS1.junk (kernelRunB c i arg2 harg2 arg3 harg3 arg4 harg4 arg5 harg5 arg6 harg6 hcA hcB hcC x0 x1 xs0 xs1).2.1)

/-- At a last tile the store into the output row's buffer covers it. -/
theorem coverC_2 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) (y : S1x1x128.Idx) :
    ∃ pc ∈ (kernelRunC c i arg2 harg2 arg3 harg3 arg4 harg4 arg5 harg5 arg6 harg6 hcA hcB hcC x0 x1 xs0 xs1).1, y ∈ pc.1.set :=
  View.cover_of_tiledL (kernelRunC c i arg2 harg2 arg3 harg3 arg4 harg4 arg5 harg5 arg6 harg6 hcA hcB hcC x0 x1 xs0 xs1).1 S1x1x128.size (by sl_kernel_rfl) y
/-- What a last tile leaves in the output row's buffer. -/
def outC_2 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) : Vec F S1x1x128 .f32 :=
  VO2.read (Elt F) (VO2.writes (Elt F) VO2.junk (kernelRunC c i arg2 harg2 arg3 harg3 arg4 harg4 arg5 harg5 arg6 harg6 hcA hcB hcC x0 x1 xs0 xs1).1)
theorem scoverC_0 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) (y : S1x2048.Idx) :
    ∃ pc ∈ (kernelRunC c i arg2 harg2 arg3 harg3 arg4 harg4 arg5 harg5 arg6 harg6 hcA hcB hcC x0 x1 xs0 xs1).2.1, y ∈ pc.1.set :=
  View.cover_of_tiledL (kernelRunC c i arg2 harg2 arg3 harg3 arg4 harg4 arg5 harg5 arg6 harg6 hcA hcB hcC x0 x1 xs0 xs1).2.1 S1x2048.size (by sl_kernel_rfl) y
/-- What a last tile leaves in the running column minimum. -/
def soutC_0 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) : Vec F S1x2048 .f32 :=
  VS0.read (Elt F) (VS0.writes (Elt F) VS0.junk (kernelRunC c i arg2 harg2 arg3 harg3 arg4 harg4 arg5 harg5 arg6 harg6 hcA hcB hcC x0 x1 xs0 xs1).2.1)
theorem scoverC_1 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) (y : S1x1.Idx) :
    ∃ pc ∈ (kernelRunC c i arg2 harg2 arg3 harg3 arg4 harg4 arg5 harg5 arg6 harg6 hcA hcB hcC x0 x1 xs0 xs1).2.2.1, y ∈ pc.1.set :=
  View.cover_of_tiledL (kernelRunC c i arg2 harg2 arg3 harg3 arg4 harg4 arg5 harg5 arg6 harg6 hcA hcB hcC x0 x1 xs0 xs1).2.2.1 S1x1.size (by sl_kernel_rfl) y
/-- What a last tile leaves in the running sum. -/
def soutC_1 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) : Vec F S1x1 .f32 :=
  VS1.read (Elt F) (VS1.writes (Elt F) VS1.junk (kernelRunC c i arg2 harg2 arg3 harg3 arg4 harg4 arg5 harg5 arg6 harg6 hcA hcB hcC x0 x1 xs0 xs1).2.2.1)

/-- A placeholder for the output row's buffer at the points that store nothing into it: there the window is idle and
    nothing is written back, so nothing consults it. -/
def idleOut : Vec F S1x1x128 .f32 := VO2.read (Elt F) VO2.junk

/-! ## What the buffers hold after each point -/

/-- After the body at position `n`: the output row's buffer, the running column minimum, the running sum. -/
def outsAt (c : Dev nD) : (n : ℕ) → n < cfg0.N → Vec F S1x1x128 .f32 × Vec F S1x2048 .f32 × Vec F S1x1 .f32
  | 0, hn =>
    let t : Fin cfg0.N := ⟨0, hn⟩
    (idleOut, soutA_0 c (grid0.coords t) (ms0 t) (hs0 t) (ms1 t) (hs1 t) (ms2 t) (hs2 t) scM0 (Memref.isWhole_whole _) scM1 (Memref.isWhole_whole _) (A_of t (Nat.zero_mod 4)) (notB_of t (Nat.zero_mod 4)) (notC_of0 t (Nat.zero_mod 4)) (iblk m c 0 t) (iblk m c 1 t),
      soutA_1 c (grid0.coords t) (ms0 t) (hs0 t) (ms1 t) (hs1 t) (ms2 t) (hs2 t) scM0 (Memref.isWhole_whole _) scM1 (Memref.isWhole_whole _) (A_of t (Nat.zero_mod 4)) (notB_of t (Nat.zero_mod 4)) (notC_of0 t (Nat.zero_mod 4)) (iblk m c 0 t) (iblk m c 1 t))
  | n + 1, hn =>
    let t : Fin cfg0.N := ⟨n + 1, hn⟩
    if h0 : (n + 1) % 4 = 0 then
      (idleOut, soutA_0 c (grid0.coords t) (ms0 t) (hs0 t) (ms1 t) (hs1 t) (ms2 t) (hs2 t) scM0 (Memref.isWhole_whole _) scM1 (Memref.isWhole_whole _) (A_of t h0) (notB_of t h0) (notC_of0 t h0) (iblk m c 0 t) (iblk m c 1 t),
        soutA_1 c (grid0.coords t) (ms0 t) (hs0 t) (ms1 t) (hs1 t) (ms2 t) (hs2 t) scM0 (Memref.isWhole_whole _) scM1 (Memref.isWhole_whole _) (A_of t h0) (notB_of t h0) (notC_of0 t h0) (iblk m c 0 t) (iblk m c 1 t))
    else if h3 : (n + 1) % 4 = 3 then
      (outC_2 c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt c n (Nat.lt_of_succ_lt hn)).2.1 (outsAt c n (Nat.lt_of_succ_lt hn)).2.2,
        soutC_0 c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt c n (Nat.lt_of_succ_lt hn)).2.1 (outsAt c n (Nat.lt_of_succ_lt hn)).2.2,
        soutC_1 c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt c n (Nat.lt_of_succ_lt hn)).2.1 (outsAt c n (Nat.lt_of_succ_lt hn)).2.2)
    else
      (idleOut, soutB_0 c (grid0.coords t) (ms0 t) (hs0 t) (ms1 t) (hs1 t) (ms2 t) (hs2 t) scM0 (Memref.isWhole_whole _) scM1 (Memref.isWhole_whole _) (notA_of t h0) (B_of t h0) (notC_of t h3) (iblk m c 0 t) (iblk m c 1 t) (outsAt c n (Nat.lt_of_succ_lt hn)).2.1 (outsAt c n (Nat.lt_of_succ_lt hn)).2.2,
        soutB_1 c (grid0.coords t) (ms0 t) (hs0 t) (ms1 t) (hs1 t) (ms2 t) (hs2 t) scM0 (Memref.isWhole_whole _) scM1 (Memref.isWhole_whole _) (notA_of t h0) (B_of t h0) (notC_of t h3) (iblk m c 0 t) (iblk m c 1 t) (outsAt c n (Nat.lt_of_succ_lt hn)).2.1 (outsAt c n (Nat.lt_of_succ_lt hn)).2.2)

/-- The point before `t`, as a position. -/
abbrev prevLt (t : Fin cfg0.N) : t.val - 1 < cfg0.N := Nat.lt_of_le_of_lt (Nat.sub_le _ _) t.isLt

theorem outsAt_A (c : Dev nD) (t : Fin cfg0.N) (h0 : t.val % 4 = 0) :
    outsAt m c t.val t.isLt = (idleOut, soutA_0 c (grid0.coords t) (ms0 t) (hs0 t) (ms1 t) (hs1 t) (ms2 t) (hs2 t) scM0 (Memref.isWhole_whole _) scM1 (Memref.isWhole_whole _) (A_of t h0) (notB_of t h0) (notC_of0 t h0) (iblk m c 0 t) (iblk m c 1 t),
      soutA_1 c (grid0.coords t) (ms0 t) (hs0 t) (ms1 t) (hs1 t) (ms2 t) (hs2 t) scM0 (Memref.isWhole_whole _) scM1 (Memref.isWhole_whole _) (A_of t h0) (notB_of t h0) (notC_of0 t h0) (iblk m c 0 t) (iblk m c 1 t)) := by
  obtain ⟨n, hn⟩ := t
  cases n with
  | zero => exact rfl
  | succ n => exact (dif_pos h0).trans rfl

theorem outsAt_B (c : Dev nD) (t : Fin cfg0.N) (h0 : ¬t.val % 4 = 0) (h3 : ¬t.val % 4 = 3) :
    outsAt m c t.val t.isLt = (idleOut, soutB_0 c (grid0.coords t) (ms0 t) (hs0 t) (ms1 t) (hs1 t) (ms2 t) (hs2 t) scM0 (Memref.isWhole_whole _) scM1 (Memref.isWhole_whole _) (notA_of t h0) (B_of t h0) (notC_of t h3) (iblk m c 0 t) (iblk m c 1 t) (outsAt m c (t.val - 1) (prevLt t)).2.1 (outsAt m c (t.val - 1) (prevLt t)).2.2,
      soutB_1 c (grid0.coords t) (ms0 t) (hs0 t) (ms1 t) (hs1 t) (ms2 t) (hs2 t) scM0 (Memref.isWhole_whole _) scM1 (Memref.isWhole_whole _) (notA_of t h0) (B_of t h0) (notC_of t h3) (iblk m c 0 t) (iblk m c 1 t) (outsAt m c (t.val - 1) (prevLt t)).2.1 (outsAt m c (t.val - 1) (prevLt t)).2.2) := by
  obtain ⟨n, hn⟩ := t
  cases n with
  | zero => exact absurd (Nat.zero_mod _) h0
  | succ n => exact (dif_neg h0).trans ((dif_neg h3).trans rfl)

theorem outsAt_C (c : Dev nD) (t : Fin cfg0.N) (h0 : ¬t.val % 4 = 0) (h3 : t.val % 4 = 3) :
    outsAt m c t.val t.isLt = (outC_2 c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt m c (t.val - 1) (prevLt t)).2.1 (outsAt m c (t.val - 1) (prevLt t)).2.2,
      soutC_0 c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt m c (t.val - 1) (prevLt t)).2.1 (outsAt m c (t.val - 1) (prevLt t)).2.2,
      soutC_1 c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt m c (t.val - 1) (prevLt t)).2.1 (outsAt m c (t.val - 1) (prevLt t)).2.2) := by
  obtain ⟨n, hn⟩ := t
  cases n with
  | zero => exact absurd (Nat.zero_mod _) h0
  | succ n => exact (dif_neg h0).trans ((dif_pos h3).trans rfl)

/-! ## The region's invariant -/

/-- Before position `n`: before the first point the two carried buffers hold anything; afterwards what the point
    before left in them. The generator register is at some state throughout. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ owns (c : Thread nD τ) scM1 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((outsAt m c n hn).2.1) ∗ owns (c : Thread nD τ) scM1 fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt m c (n - 1) (by omega)).2.1) ∗ owns (c : Thread nD τ) scM1 fullShare ((outsAt m c (n - 1) (by omega)).2.2)) ∗ (∃ r, prngReg c r)) := by
  cases n with
  | zero => exact absurd rfl hz
  | succ n => rfl

/-! ## The proof data -/

/-- On core `c`: the arrays as the region finds them; after the body at a point each input's buffer at its block and
    the output row's buffer at `outsAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]

set_option maxHeartbeats 4800000 in
/-- The body at any point. The inputs' buffers hold their blocks; the position says which case the point is in; the
    invariant hands the body the two carried buffers (at anything before the very first point, else at what the point
    before left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 128 := lt_of_lt_of_eq t.isLt (show cfg0.N = 128 from N_0)
  by_cases h0 : t.val % 4 = 0
  · rw [Dat.leavesExact_idle (dats m 0 c) 2 t (idleAt2 t (notC_of0 t h0)) (noFlush2 t (notC_of0 t h0))]
    rw [outsAt_A m c t h0]
    unfold soutA_0 soutA_1; (try dsimp only)
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩⟩
      iapply ((kernelRunA c (grid0.coords t) _ _ _ _ _ _ _ _ _ _ (A_of t h0) (notB_of t h0) (notC_of0 t h0) (iblk m c 0 t) (iblk m c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c _ _ _ _ _ _ _ _ _ _ _ _ _ _ _ _)
          · unfold owns; iexists _; isplitr
            swap; · iexact HS1
            ipureintro; exact View.read_writes_of_cover _ _ _ _ _ (scoverA_1 c _ _ _ _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨⟨HS0, HS1⟩, Hg⟩, Ho, ⟨%d0, H0⟩, ⟨%d1, H1⟩, ⟨%d2, H2⟩⟩
      iapply ((kernelRunA c (grid0.coords t) _ _ _ _ _ _ _ _ _ _ (A_of t h0) (notB_of t h0) (notC_of0 t h0) (iblk m c 0 t) (iblk m c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c _ _ _ _ _ _ _ _ _ _ _ _ _ _ _ _)
          · unfold owns; iexists _; isplitr
            swap; · iexact HS1
            ipureintro; exact View.read_writes_of_cover _ _ _ _ _ (scoverA_1 c _ _ _ _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dats m 0 c).leavesExact 2 t = owns (c : Thread nD τ) (ms2 t) fullShare ((dats m 0 c).after 2 t) from by
        unfold Dat.leavesExact; rw [liveAt2 t (C_of t h3)], after2]
      rw [outsAt_C m c t h0 h3]
      unfold outC_2 soutC_0 soutC_1; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((kernelRunC c (grid0.coords t) _ _ _ _ _ _ _ _ _ _ (notA_of t h0) (B_of t h0) (C_of t h3) (iblk m c 0 t) (iblk m c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverC_0 c _ _ _ _ _ _ _ _ _ _ _ _ _ _ _ _ _ _)
          · unfold owns; iexists _; isplitr
            swap; · iexact HS1
            ipureintro; exact View.read_writes_of_cover _ _ _ _ _ (scoverC_1 c _ _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverC_2 c _ _ _ _ _ _ _ _ _ _ _ _ _ _ _ _ _ _)
    · rw [Dat.leavesExact_idle (dats m 0 c) 2 t (idleAt2 t (notC_of t h3)) (noFlush2 t (notC_of t h3))]
      rw [outsAt_B m c t h0 h3]
      unfold soutB_0 soutB_1; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((kernelRunB c (grid0.coords t) _ _ _ _ _ _ _ _ _ _ (notA_of t h0) (B_of t h0) (notC_of t h3) (iblk m c 0 t) (iblk m c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverB_0 c _ _ _ _ _ _ _ _ _ _ _ _ _ _ _ _ _ _)
          · unfold owns; iexists _; isplitr
            swap; · iexact HS1
            ipureintro; exact View.read_writes_of_cover _ _ _ _ _ (scoverB_1 c _ _ _ _ _ _ _ _ _ _ _ _ _ _ _ _ _ _)
        iexact Hg
      isplitl [Ho]; · iexact Ho
      isplitl [H0]; · iexact H0
      isplitl [H1]; · iexact H1
      iexists _; iexact H2

/-- The body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch back what it lent: the carried buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- Every weakly fair execution of the program terminates, and every final state has every array of the pipeline at
    what the proof data computes and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hin := hin m) (hout := hout m)

/-- The program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyIShared.lean ====
/-
  The grid is 32 batches by 4 tiles of 512 query points, the tile index innermost. The body branches three times on
  the tile index alone: at the first tile it RESETS the two carried buffers (the running column minimum, one row of 2048
  numbers, and the running sum of row minima, one number); at every later tile it UPDATES them; at the last tile it also
  writes the batch's output row. Here: the three conditions as the body computes them, decided over the 128 points;
  where the output window is idle; and the staging and carried buffers as the pipeline hands them to the body.
-/
import proofs.«109606_j62749472194941_2_alg».proof.Proof.Gen.KernelIdeal.Frame
import proofs.«109606_j62749472194941_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- "This is the batch's first tile", as the body computes it from the tile coordinate. -/
abbrev condA (i : grid0.Coords) : Prop :=
  (Scalar.cmpi .ne (Scalar.extui (Scalar.cmpi .eq (BitVec.ofNat 32 (i 1).val) 0#32)) 0#32) = 1#1
/-- It holds at the points whose position is a multiple of 4. -/
theorem hcondA : ∀ t : Fin cfg0.N, condA (grid0.coords t) ↔ t.val % 4 = 0 :=
  (by decide +kernel : ∀ t : Fin grid0.N, condA (grid0.coords t) ↔ t.val % 4 = 0)

/-- "This is not the batch's first tile", as the body computes it. -/
abbrev condB (i : grid0.Coords) : Prop :=
  (Scalar.cmpi .ne (Scalar.extui (Scalar.cmpi .ne (BitVec.ofNat 32 (i 1).val) 0#32)) 0#32) = 1#1
/-- It holds at the points whose position is no multiple of 4. -/
theorem hcondB : ∀ t : Fin cfg0.N, condB (grid0.coords t) ↔ ¬ t.val % 4 = 0 :=
  (by decide +kernel : ∀ t : Fin grid0.N, condB (grid0.coords t) ↔ ¬ t.val % 4 = 0)

/-- "This is the batch's last tile", as the body computes it. -/
abbrev condC (i : grid0.Coords) : Prop := k0_cond3 i = 1#1
/-- It holds at the points whose position is 3 modulo 4. -/
theorem hcondC : ∀ t : Fin cfg0.N, condC (grid0.coords t) ↔ t.val % 4 = 3 :=
  (by decide +kernel : ∀ t : Fin grid0.N, condC (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- Away from a last tile the output row is not stored: its window is idle there, -/
theorem idleAt2 : ∀ t : Fin cfg0.N, ¬condC (grid0.coords t) → cfg0.idle 2 (grid0.coords t) = true := by decide +kernel
/-- and nothing is written back. -/
theorem noFlush2 : ∀ t : Fin cfg0.N, ¬condC (grid0.coords t) → (cfg0.win 2).flush t = false := by decide +kernel
/-- At a last tile the output row is stored. -/
theorem liveAt2 : ∀ t : Fin cfg0.N, condC (grid0.coords t) → cfg0.idle 2 (grid0.coords t) = false := by decide +kernel

/-! ## The buffers the body is handed -/

/-- One staging buffer of the output window, through which its contents are stated. -/
abbrev VO2 : View sig .tc .vmem S1x1x128 .f32 := (Memref.whole cc0_stg2_0 : Memref sig .tc .vmem S1x1x128 .f32).view
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x128 .f32 := win0_2.stage (cfg0.slots t 2)
abbrev hs2 (t : Fin cfg0.N) : (ms2 t).IsWhole := hstage0_2 ((cfg0.slots t 2).cast nbuf0_2)
/-- The running column minimum (one row of 2048 numbers) and the running sum of row minima (one number). -/
abbrev scM0 : Memref sig .tc .vmem S1x2048 .f32 := Memref.whole cc0_scratch0
abbrev scM1 : Memref sig .tc .vmem S1x1 .f32 := Memref.whole cc0_scratch1
abbrev VS0 : View sig .tc .vmem S1x2048 .f32 := scM0.view
abbrev VS1 : View sig .tc .vmem S1x1 .f32 := scM1.view

/-- What the region may use beside its windows: the two carried buffers, each at some contents, and the generator
    register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.KernelIdeal.Body

end
-- ==== Proof.BodyIRunA.lean ====
/-
  The body at a batch's FIRST tile: it reads the two input blocks, and stores into the two carried buffers (whatever
  they held) the tile's column minima and the tile's sum of row minima; the output row's buffer is left as it was.
-/
import proofs.«109606_j62749472194941_2_alg».proof.Proof.BodyIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two carried buffers at a first tile, with the run that finds them: from
    the inputs' buffers at their contents, the output's at contents handed back untouched, the carried buffers at
    anything, the body runs to a continuation holding the inputs' and the output's as they were and each carried
    buffer with its pieces written. -/
noncomputable def kernelRunA (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : condA i) (hcB : ¬condB i) (hcC : ¬condC i)
    (x0 : Vec F S1x512x3 .f32) (x1 : Vec F S1x3x2048 .f32) :
    Σ' (LS0 : List (View.Piece (Elt F) S1x2048 .f32)), { LS1 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi2 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hcA | exact hcB | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Body

end
-- ==== Proof.BodyIRunB.lean ====
/-
  The body at a tile that is neither a batch's first nor its last: it reads the two input blocks and the two carried
  buffers, and stores back the elementwise minimum of the carried row with the tile's column minima, and the carried sum
  plus the tile's sum of row minima; the output row's buffer is left as it was.
-/
import proofs.«109606_j62749472194941_2_alg».proof.Proof.BodyIRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two carried buffers at a middle tile, with the run that finds them: the
    carried buffers come in at the contents the tile before left. -/
noncomputable def kernelRunB (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : ¬condC i)
    (x0 : Vec F S1x512x3 .f32) (x1 : Vec F S1x3x2048 .f32) (xs0 : Vec F S1x2048 .f32) (xs1 : Vec F S1x1 .f32) :
    Σ' (LS0 : List (View.Piece (Elt F) S1x2048 .f32)), { LS1 : List (View.Piece (Elt F) S1x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi2 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hcA | exact hcB | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Body

end
-- ==== Proof.BodyIRunC.lean ====
/-
  The body at a batch's LAST tile: it updates the two carried buffers as at a middle tile, then reads them back and
  stores the output row: lane 0 the carried sum of row minima, lane 1 the sum of the carried column minima, the other
  lanes zero.
-/
import proofs.«109606_j62749472194941_2_alg».proof.Proof.BodyIRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output row's buffer and in the two carried buffers at a last tile, with
    the run that finds them: the output's buffer comes in at anything. -/
noncomputable def kernelRunC (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) :
    Σ' (L2 : List (View.Piece (Elt F) S1x1x128 .f32)) (LS0 : List (View.Piece (Elt F) S1x2048 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hcA | exact hcB | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Body

end
-- ==== Proof.BodyIFrame.lean ====
/-
  The frame of the program: what the two carried buffers and the output row's buffer hold after every grid point, by
  recursion on the point (a first tile resets the carried buffers from the tile alone; a later tile updates what the
  tile before left; a last tile also stores the output row); the region's invariant, which carries the two buffers'
  contents from point to point; the body at every point, by cases on the tile; and the run of the whole program.
-/
import proofs.«109606_j62749472194941_2_alg».proof.Proof.BodyIRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point, from its position -/

theorem A_of (t : Fin cfg0.N) (h0 : t.val % 4 = 0) : condA (grid0.coords t) := (hcondA t).mpr h0
theorem notB_of (t : Fin cfg0.N) (h0 : t.val % 4 = 0) : ¬condB (grid0.coords t) := fun h => (hcondB t).mp h h0
theorem notC_of0 (t : Fin cfg0.N) (h0 : t.val % 4 = 0) : ¬condC (grid0.coords t) := fun h => by have := (hcondC t).mp h; omega
theorem notA_of (t : Fin cfg0.N) (h0 : ¬t.val % 4 = 0) : ¬condA (grid0.coords t) := fun h => h0 ((hcondA t).mp h)
theorem B_of (t : Fin cfg0.N) (h0 : ¬t.val % 4 = 0) : condB (grid0.coords t) := (hcondB t).mpr h0
theorem C_of (t : Fin cfg0.N) (h3 : t.val % 4 = 3) : condC (grid0.coords t) := (hcondC t).mpr h3
theorem notC_of (t : Fin cfg0.N) (h3 : ¬t.val % 4 = 3) : ¬condC (grid0.coords t) := fun h => h3 ((hcondC t).mp h)

/-! ## What each case leaves -/

/-- At a first tile the stores into the running column minimum cover it. -/
theorem scoverA_0 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : condA i) (hcB : ¬condB i) (hcC : ¬condC i)
    (x0 : Vec F S1x512x3 .f32) (x1 : Vec F S1x3x2048 .f32) (y : S1x2048.Idx) :
    ∃ pc ∈ (kernelRunA c i arg2 harg2 arg3 harg3 arg4 harg4 arg5 harg5 arg6 harg6 hcA hcB hcC x0 x1).1, y ∈ pc.1.set :=
  View.cover_of_tiledL (kernelRunA c i arg2 harg2 arg3 harg3 arg4 harg4 arg5 harg5 arg6 harg6 hcA hcB hcC x0 x1).1 S1x2048.size (by sl_kernel_rfl) y
/-- What a first tile leaves in the running column minimum. -/
def soutA_0 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : condA i) (hcB : ¬condB i) (hcC : ¬condC i)
    (x0 : Vec F S1x512x3 .f32) (x1 : Vec F S1x3x2048 .f32) : Vec F S1x2048 .f32 :=
  VS0.read (Elt F) (VS0.writes (Elt F) VS0.junk (kernelRunA c i arg2 harg2 arg3 harg3 arg4 harg4 arg5 harg5 arg6 harg6 hcA hcB hcC x0 x1).1)
/-- At a first tile the store into the running sum covers it. -/
theorem scoverA_1 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : condA i) (hcB : ¬condB i) (hcC : ¬condC i)
    (x0 : Vec F S1x512x3 .f32) (x1 : Vec F S1x3x2048 .f32) (y : S1x1.Idx) :
    ∃ pc ∈ (kernelRunA c i arg2 harg2 arg3 harg3 arg4 harg4 arg5 harg5 arg6 harg6 hcA hcB hcC x0 x1).2.1, y ∈ pc.1.set :=
  View.cover_of_tiledL (kernelRunA c i arg2 harg2 arg3 harg3 arg4 harg4 arg5 harg5 arg6 harg6 hcA hcB hcC x0 x1).2.1 S1x1.size (by sl_kernel_rfl) y
/-- What a first tile leaves in the running sum. -/
def soutA_1 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : condA i) (hcB : ¬condB i) (hcC : ¬condC i)
    (x0 : Vec F S1x512x3 .f32) (x1 : Vec F S1x3x2048 .f32) : Vec F S1x1 .f32 :=
  VS1.read (Elt F) (VS1.writes (Elt F) VS1.junk (kernelRunA c i arg2 harg2 arg3 harg3 arg4 harg4 arg5 harg5 arg6 harg6 hcA hcB hcC x0 x1).2.1)

theorem scoverB_0 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : ¬condC i)
    (x0 : Vec F S1x512x3 .f32) (x1 : Vec F S1x3x2048 .f32) (xs0 : Vec F S1x2048 .f32) (xs1 : Vec F S1x1 .f32) (y : S1x2048.Idx) :
    ∃ pc ∈ (kernelRunB c i arg2 harg2 arg3 harg3 arg4 harg4 arg5 harg5 arg6 harg6 hcA hcB hcC x0 x1 xs0 xs1).1, y ∈ pc.1.set :=
  View.cover_of_tiledL (kernelRunB c i arg2 harg2 arg3 harg3 arg4 harg4 arg5 harg5 arg6 harg6 hcA hcB hcC x0 x1 xs0 xs1).1 S1x2048.size (by sl_kernel_rfl) y
/-- What a middle tile leaves in the running column minimum, from what the tile before left. -/
def soutB_0 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : ¬condC i)
    (x0 : Vec F S1x512x3 .f32) (x1 : Vec F S1x3x2048 .f32) (xs0 : Vec F S1x2048 .f32) (xs1 : Vec F S1x1 .f32) : Vec F S1x2048 .f32 :=
  VS0.read (Elt F) (VS0.writes (Elt F) VS0.junk (kernelRunB c i arg2 harg2 arg3 harg3 arg4 harg4 arg5 harg5 arg6 harg6 hcA hcB hcC x0 x1 xs0 xs1).1)
theorem scoverB_1 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : ¬condC i)
    (x0 : Vec F S1x512x3 .f32) (x1 : Vec F S1x3x2048 .f32) (xs0 : Vec F S1x2048 .f32) (xs1 : Vec F S1x1 .f32) (y : S1x1.Idx) :
    ∃ pc ∈ (kernelRunB c i arg2 harg2 arg3 harg3 arg4 harg4 arg5 harg5 arg6 harg6 hcA hcB hcC x0 x1 xs0 xs1).2.1, y ∈ pc.1.set :=
  View.cover_of_tiledL (kernelRunB c i arg2 harg2 arg3 harg3 arg4 harg4 arg5 harg5 arg6 harg6 hcA hcB hcC x0 x1 xs0 xs1).2.1 S1x1.size (by sl_kernel_rfl) y
/-- What a middle tile leaves in the running sum. -/
def soutB_1 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : ¬condC i)
    (x0 : Vec F S1x512x3 .f32) (x1 : Vec F S1x3x2048 .f32) (xs0 : Vec F S1x2048 .f32) (xs1 : Vec F S1x1 .f32) : Vec F S1x1 .f32 :=
  VS1.read (Elt F) (VS1.writes (Elt F) VS1.junk (kernelRunB c i arg2 harg2 arg3 harg3 arg4 harg4 arg5 harg5 arg6 harg6 hcA hcB hcC x0 x1 xs0 xs1).2.1)

/-- At a last tile the store into the output row's buffer covers it. -/
theorem coverC_2 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) (y : S1x1x128.Idx) :
    ∃ pc ∈ (kernelRunC c i arg2 harg2 arg3 harg3 arg4 harg4 arg5 harg5 arg6 harg6 hcA hcB hcC x0 x1 xs0 xs1).1, y ∈ pc.1.set :=
  View.cover_of_tiledL (kernelRunC c i arg2 harg2 arg3 harg3 arg4 harg4 arg5 harg5 arg6 harg6 hcA hcB hcC x0 x1 xs0 xs1).1 S1x1x128.size (by sl_kernel_rfl) y
/-- What a last tile leaves in the output row's buffer. -/
def outC_2 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) : Vec F S1x1x128 .f32 :=
  VO2.read (Elt F) (VO2.writes (Elt F) VO2.junk (kernelRunC c i arg2 harg2 arg3 harg3 arg4 harg4 arg5 harg5 arg6 harg6 hcA hcB hcC x0 x1 xs0 xs1).1)
theorem scoverC_0 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) (y : S1x2048.Idx) :
    ∃ pc ∈ (kernelRunC c i arg2 harg2 arg3 harg3 arg4 harg4 arg5 harg5 arg6 harg6 hcA hcB hcC x0 x1 xs0 xs1).2.1, y ∈ pc.1.set :=
  View.cover_of_tiledL (kernelRunC c i arg2 harg2 arg3 harg3 arg4 harg4 arg5 harg5 arg6 harg6 hcA hcB hcC x0 x1 xs0 xs1).2.1 S1x2048.size (by sl_kernel_rfl) y
/-- What a last tile leaves in the running column minimum. -/
def soutC_0 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) : Vec F S1x2048 .f32 :=
  VS0.read (Elt F) (VS0.writes (Elt F) VS0.junk (kernelRunC c i arg2 harg2 arg3 harg3 arg4 harg4 arg5 harg5 arg6 harg6 hcA hcB hcC x0 x1 xs0 xs1).2.1)
theorem scoverC_1 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) (y : S1x1.Idx) :
    ∃ pc ∈ (kernelRunC c i arg2 harg2 arg3 harg3 arg4 harg4 arg5 harg5 arg6 harg6 hcA hcB hcC x0 x1 xs0 xs1).2.2.1, y ∈ pc.1.set :=
  View.cover_of_tiledL (kernelRunC c i arg2 harg2 arg3 harg3 arg4 harg4 arg5 harg5 arg6 harg6 hcA hcB hcC x0 x1 xs0 xs1).2.2.1 S1x1.size (by sl_kernel_rfl) y
/-- What a last tile leaves in the running sum. -/
def soutC_1 (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) : Vec F S1x1 .f32 :=
  VS1.read (Elt F) (VS1.writes (Elt F) VS1.junk (kernelRunC c i arg2 harg2 arg3 harg3 arg4 harg4 arg5 harg5 arg6 harg6 hcA hcB hcC x0 x1 xs0 xs1).2.2.1)

/-- A placeholder for the output row's buffer at the points that store nothing into it: there the window is idle and
    nothing is written back, so nothing consults it. -/
def idleOut : Vec F S1x1x128 .f32 := VO2.read (Elt F) VO2.junk

/-! ## What the buffers hold after each point -/

/-- After the body at position `n`: the output row's buffer, the running column minimum, the running sum. -/
def outsAt (c : Dev nD) : (n : ℕ) → n < cfg0.N → Vec F S1x1x128 .f32 × Vec F S1x2048 .f32 × Vec F S1x1 .f32
  | 0, hn =>
    let t : Fin cfg0.N := ⟨0, hn⟩
    (idleOut, soutA_0 c (grid0.coords t) (ms0 t) (hs0 t) (ms1 t) (hs1 t) (ms2 t) (hs2 t) scM0 (Memref.isWhole_whole _) scM1 (Memref.isWhole_whole _) (A_of t (Nat.zero_mod 4)) (notB_of t (Nat.zero_mod 4)) (notC_of0 t (Nat.zero_mod 4)) (iblk m c 0 t) (iblk m c 1 t),
      soutA_1 c (grid0.coords t) (ms0 t) (hs0 t) (ms1 t) (hs1 t) (ms2 t) (hs2 t) scM0 (Memref.isWhole_whole _) scM1 (Memref.isWhole_whole _) (A_of t (Nat.zero_mod 4)) (notB_of t (Nat.zero_mod 4)) (notC_of0 t (Nat.zero_mod 4)) (iblk m c 0 t) (iblk m c 1 t))
  | n + 1, hn =>
    let t : Fin cfg0.N := ⟨n + 1, hn⟩
    if h0 : (n + 1) % 4 = 0 then
      (idleOut, soutA_0 c (grid0.coords t) (ms0 t) (hs0 t) (ms1 t) (hs1 t) (ms2 t) (hs2 t) scM0 (Memref.isWhole_whole _) scM1 (Memref.isWhole_whole _) (A_of t h0) (notB_of t h0) (notC_of0 t h0) (iblk m c 0 t) (iblk m c 1 t),
        soutA_1 c (grid0.coords t) (ms0 t) (hs0 t) (ms1 t) (hs1 t) (ms2 t) (hs2 t) scM0 (Memref.isWhole_whole _) scM1 (Memref.isWhole_whole _) (A_of t h0) (notB_of t h0) (notC_of0 t h0) (iblk m c 0 t) (iblk m c 1 t))
    else if h3 : (n + 1) % 4 = 3 then
      (outC_2 c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt c n (Nat.lt_of_succ_lt hn)).2.1 (outsAt c n (Nat.lt_of_succ_lt hn)).2.2,
        soutC_0 c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt c n (Nat.lt_of_succ_lt hn)).2.1 (outsAt c n (Nat.lt_of_succ_lt hn)).2.2,
        soutC_1 c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt c n (Nat.lt_of_succ_lt hn)).2.1 (outsAt c n (Nat.lt_of_succ_lt hn)).2.2)
    else
      (idleOut, soutB_0 c (grid0.coords t) (ms0 t) (hs0 t) (ms1 t) (hs1 t) (ms2 t) (hs2 t) scM0 (Memref.isWhole_whole _) scM1 (Memref.isWhole_whole _) (notA_of t h0) (B_of t h0) (notC_of t h3) (iblk m c 0 t) (iblk m c 1 t) (outsAt c n (Nat.lt_of_succ_lt hn)).2.1 (outsAt c n (Nat.lt_of_succ_lt hn)).2.2,
        soutB_1 c (grid0.coords t) (ms0 t) (hs0 t) (ms1 t) (hs1 t) (ms2 t) (hs2 t) scM0 (Memref.isWhole_whole _) scM1 (Memref.isWhole_whole _) (notA_of t h0) (B_of t h0) (notC_of t h3) (iblk m c 0 t) (iblk m c 1 t) (outsAt c n (Nat.lt_of_succ_lt hn)).2.1 (outsAt c n (Nat.lt_of_succ_lt hn)).2.2)

/-- The point before `t`, as a position. -/
abbrev prevLt (t : Fin cfg0.N) : t.val - 1 < cfg0.N := Nat.lt_of_le_of_lt (Nat.sub_le _ _) t.isLt

theorem outsAt_A (c : Dev nD) (t : Fin cfg0.N) (h0 : t.val % 4 = 0) :
    outsAt m c t.val t.isLt = (idleOut, soutA_0 c (grid0.coords t) (ms0 t) (hs0 t) (ms1 t) (hs1 t) (ms2 t) (hs2 t) scM0 (Memref.isWhole_whole _) scM1 (Memref.isWhole_whole _) (A_of t h0) (notB_of t h0) (notC_of0 t h0) (iblk m c 0 t) (iblk m c 1 t),
      soutA_1 c (grid0.coords t) (ms0 t) (hs0 t) (ms1 t) (hs1 t) (ms2 t) (hs2 t) scM0 (Memref.isWhole_whole _) scM1 (Memref.isWhole_whole _) (A_of t h0) (notB_of t h0) (notC_of0 t h0) (iblk m c 0 t) (iblk m c 1 t)) := by
  obtain ⟨n, hn⟩ := t
  cases n with
  | zero => exact rfl
  | succ n => exact (dif_pos h0).trans rfl

theorem outsAt_B (c : Dev nD) (t : Fin cfg0.N) (h0 : ¬t.val % 4 = 0) (h3 : ¬t.val % 4 = 3) :
    outsAt m c t.val t.isLt = (idleOut, soutB_0 c (grid0.coords t) (ms0 t) (hs0 t) (ms1 t) (hs1 t) (ms2 t) (hs2 t) scM0 (Memref.isWhole_whole _) scM1 (Memref.isWhole_whole _) (notA_of t h0) (B_of t h0) (notC_of t h3) (iblk m c 0 t) (iblk m c 1 t) (outsAt m c (t.val - 1) (prevLt t)).2.1 (outsAt m c (t.val - 1) (prevLt t)).2.2,
      soutB_1 c (grid0.coords t) (ms0 t) (hs0 t) (ms1 t) (hs1 t) (ms2 t) (hs2 t) scM0 (Memref.isWhole_whole _) scM1 (Memref.isWhole_whole _) (notA_of t h0) (B_of t h0) (notC_of t h3) (iblk m c 0 t) (iblk m c 1 t) (outsAt m c (t.val - 1) (prevLt t)).2.1 (outsAt m c (t.val - 1) (prevLt t)).2.2) := by
  obtain ⟨n, hn⟩ := t
  cases n with
  | zero => exact absurd (Nat.zero_mod _) h0
  | succ n => exact (dif_neg h0).trans ((dif_neg h3).trans rfl)

theorem outsAt_C (c : Dev nD) (t : Fin cfg0.N) (h0 : ¬t.val % 4 = 0) (h3 : t.val % 4 = 3) :
    outsAt m c t.val t.isLt = (outC_2 c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt m c (t.val - 1) (prevLt t)).2.1 (outsAt m c (t.val - 1) (prevLt t)).2.2,
      soutC_0 c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt m c (t.val - 1) (prevLt t)).2.1 (outsAt m c (t.val - 1) (prevLt t)).2.2,
      soutC_1 c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt m c (t.val - 1) (prevLt t)).2.1 (outsAt m c (t.val - 1) (prevLt t)).2.2) := by
  obtain ⟨n, hn⟩ := t
  cases n with
  | zero => exact absurd (Nat.zero_mod _) h0
  | succ n => exact (dif_neg h0).trans ((dif_pos h3).trans rfl)

/-! ## The region's invariant -/

/-- Before position `n`: before the first point the two carried buffers hold anything; afterwards what the point
    before left in them. The generator register is at some state throughout. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ owns (c : Thread nD τ) scM1 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((outsAt m c n hn).2.1) ∗ owns (c : Thread nD τ) scM1 fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt m c (n - 1) (by omega)).2.1) ∗ owns (c : Thread nD τ) scM1 fullShare ((outsAt m c (n - 1) (by omega)).2.2)) ∗ (∃ r, prngReg c r)) := by
  cases n with
  | zero => exact absurd rfl hz
  | succ n => rfl

/-! ## The proof data -/

/-- On core `c`: the arrays as the region finds them; after the body at a point each input's buffer at its block and
    the output row's buffer at `outsAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]

set_option maxHeartbeats 4800000 in
/-- The body at any point. The inputs' buffers hold their blocks; the position says which case the point is in; the
    invariant hands the body the two carried buffers (at anything before the very first point, else at what the point
    before left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 128 := lt_of_lt_of_eq t.isLt (show cfg0.N = 128 from N_0)
  by_cases h0 : t.val % 4 = 0
  · rw [Dat.leavesExact_idle (dats m 0 c) 2 t (idleAt2 t (notC_of0 t h0)) (noFlush2 t (notC_of0 t h0))]
    rw [outsAt_A m c t h0]
    unfold soutA_0 soutA_1; (try dsimp only)
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩⟩
      iapply ((kernelRunA c (grid0.coords t) _ _ _ _ _ _ _ _ _ _ (A_of t h0) (notB_of t h0) (notC_of0 t h0) (iblk m c 0 t) (iblk m c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c _ _ _ _ _ _ _ _ _ _ _ _ _ _ _ _)
          · unfold owns; iexists _; isplitr
            swap; · iexact HS1
            ipureintro; exact View.read_writes_of_cover _ _ _ _ _ (scoverA_1 c _ _ _ _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨⟨HS0, HS1⟩, Hg⟩, Ho, ⟨%d0, H0⟩, ⟨%d1, H1⟩, ⟨%d2, H2⟩⟩
      iapply ((kernelRunA c (grid0.coords t) _ _ _ _ _ _ _ _ _ _ (A_of t h0) (notB_of t h0) (notC_of0 t h0) (iblk m c 0 t) (iblk m c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c _ _ _ _ _ _ _ _ _ _ _ _ _ _ _ _)
          · unfold owns; iexists _; isplitr
            swap; · iexact HS1
            ipureintro; exact View.read_writes_of_cover _ _ _ _ _ (scoverA_1 c _ _ _ _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · rw [show (dats m 0 c).leavesExact 2 t = owns (c : Thread nD τ) (ms2 t) fullShare ((dats m 0 c).after 2 t) from by
        unfold Dat.leavesExact; rw [liveAt2 t (C_of t h3)], after2]
      rw [outsAt_C m c t h0 h3]
      unfold outC_2 soutC_0 soutC_1; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((kernelRunC c (grid0.coords t) _ _ _ _ _ _ _ _ _ _ (notA_of t h0) (B_of t h0) (C_of t h3) (iblk m c 0 t) (iblk m c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverC_0 c _ _ _ _ _ _ _ _ _ _ _ _ _ _ _ _ _ _)
          · unfold owns; iexists _; isplitr
            swap; · iexact HS1
            ipureintro; exact View.read_writes_of_cover _ _ _ _ _ (scoverC_1 c _ _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverC_2 c _ _ _ _ _ _ _ _ _ _ _ _ _ _ _ _ _ _)
    · rw [Dat.leavesExact_idle (dats m 0 c) 2 t (idleAt2 t (notC_of t h3)) (noFlush2 t (notC_of t h3))]
      rw [outsAt_B m c t h0 h3]
      unfold soutB_0 soutB_1; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((kernelRunB c (grid0.coords t) _ _ _ _ _ _ _ _ _ _ (notA_of t h0) (B_of t h0) (notC_of t h3) (iblk m c 0 t) (iblk m c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverB_0 c _ _ _ _ _ _ _ _ _ _ _ _ _ _ _ _ _ _)
          · unfold owns; iexists _; isplitr
            swap; · iexact HS1
            ipureintro; exact View.read_writes_of_cover _ _ _ _ _ (scoverB_1 c _ _ _ _ _ _ _ _ _ _ _ _ _ _ _ _ _ _)
        iexact Hg
      isplitl [Ho]; · iexact Ho
      isplitl [H0]; · iexact H0
      isplitl [H1]; · iexact H1
      iexists _; iexact H2

/-- The body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch back what it lent: the carried buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- Every weakly fair execution of the program terminates, and every final state has every array of the pipeline at
    what the proof data computes and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hin := hin m) (hout := hout m)

/-- The program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KernPieces.lean ====
/-
  What each case's stores leave, read back as values: a first tile leaves the tile's column minima and the tile's sum of
  row minima; a later tile the elementwise minimum of the carried row with the tile's column minima, and the carried sum
  plus the tile's sum of row minima; a last tile also the output row built from the two carried buffers AS JUST UPDATED.
-/
import proofs.«109606_j62749472194941_2_alg».proof.Proof.BodyIFrame
import Idealize.ShloMosaic.Lib.Pipeline.Value
import Idealize.ShloMosaic.Lib.Tactic

set_option maxRecDepth 16384

noncomputable section

namespace Cert.KernelIdeal.KVal

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first tile leaves the tile's column minima in the carried row. -/
theorem soutA_0_eq (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : condA i) (hcB : ¬condB i) (hcC : ¬condC i)
    (x0 : Vec F S1x512x3 .f32) (x1 : Vec F S1x3x2048 .f32) :
    soutA_0 c i arg2 harg2 arg3 harg3 arg4 harg4 arg5 harg5 arg6 harg6 hcA hcB hcC x0 x1 = k0_pay7 x0 x1 := by
  unfold soutA_0
  rw [View.read_writes_eq_canon _ _ _ (scoverA_0 c i arg2 harg2 arg3 harg3 arg4 harg4 arg5 harg5 arg6 harg6 hcA hcB hcC x0 x1)]
  unfold kernelRunA
  dsimp only
  sl_unfold_words
  first | rw [View.canon_unit_zero hz2] | rw [View.canon_cons_unit_zero (S := S1x2048) hz2] | rw [View.canon_cons_unit_zero (S := S1x1) hz2]
  simp only [View.readAt_eq_ld, harg2.read_unread, harg3.read_unread, harg5.read_unread, harg6.read_unread, View.ld_unit_zero (S := S1x512x3) hz3, View.ld_unit_zero (S := S1x3x2048) hz3, View.ld_unit_zero (S := S1x2048) hz2, View.ld_unit_zero (S := S1x1) hz2]

/-- A first tile leaves the tile's sum of row minima in the carried sum. -/
theorem soutA_1_eq (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : condA i) (hcB : ¬condB i) (hcC : ¬condC i)
    (x0 : Vec F S1x512x3 .f32) (x1 : Vec F S1x3x2048 .f32) :
    soutA_1 c i arg2 harg2 arg3 harg3 arg4 harg4 arg5 harg5 arg6 harg6 hcA hcB hcC x0 x1 = k0_pay8 x0 x1 := by
  unfold soutA_1
  rw [View.read_writes_eq_canon _ _ _ (scoverA_1 c i arg2 harg2 arg3 harg3 arg4 harg4 arg5 harg5 arg6 harg6 hcA hcB hcC x0 x1)]
  unfold kernelRunA
  dsimp only
  sl_unfold_words
  first | rw [View.canon_unit_zero hz2] | rw [View.canon_cons_unit_zero (S := S1x2048) hz2] | rw [View.canon_cons_unit_zero (S := S1x1) hz2]
  simp only [View.readAt_eq_ld, harg2.read_unread, harg3.read_unread, harg5.read_unread, harg6.read_unread, View.ld_unit_zero (S := S1x512x3) hz3, View.ld_unit_zero (S := S1x3x2048) hz3, View.ld_unit_zero (S := S1x2048) hz2, View.ld_unit_zero (S := S1x1) hz2]

/-- A middle tile updates the carried row by the elementwise minimum with the tile's column minima. -/
theorem soutB_0_eq (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : ¬condC i)
    (x0 : Vec F S1x512x3 .f32) (x1 : Vec F S1x3x2048 .f32) (xs0 : Vec F S1x2048 .f32) (xs1 : Vec F S1x1 .f32) :
    soutB_0 c i arg2 harg2 arg3 harg3 arg4 harg4 arg5 harg5 arg6 harg6 hcA hcB hcC x0 x1 xs0 xs1 = k0_pay1 (k0_pay5 x0 x1) xs0 := by
  unfold soutB_0
  rw [View.read_writes_eq_canon _ _ _ (scoverB_0 c i arg2 harg2 arg3 harg3 arg4 harg4 arg5 harg5 arg6 harg6 hcA hcB hcC x0 x1 xs0 xs1)]
  unfold kernelRunB
  dsimp only
  sl_unfold_words
  first | rw [View.canon_unit_zero hz2] | rw [View.canon_cons_unit_zero (S := S1x2048) hz2] | rw [View.canon_cons_unit_zero (S := S1x1) hz2]
  simp only [View.readAt_eq_ld, harg2.read_unread, harg3.read_unread, harg5.read_unread, harg6.read_unread, View.ld_unit_zero (S := S1x512x3) hz3, View.ld_unit_zero (S := S1x3x2048) hz3, View.ld_unit_zero (S := S1x2048) hz2, View.ld_unit_zero (S := S1x1) hz2]

/-- A middle tile adds the tile's sum of row minima to the carried sum. -/
theorem soutB_1_eq (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : ¬condC i)
    (x0 : Vec F S1x512x3 .f32) (x1 : Vec F S1x3x2048 .f32) (xs0 : Vec F S1x2048 .f32) (xs1 : Vec F S1x1 .f32) :
    soutB_1 c i arg2 harg2 arg3 harg3 arg4 harg4 arg5 harg5 arg6 harg6 hcA hcB hcC x0 x1 xs0 xs1 = k0_pay2 (k0_pay6 x0 x1) xs1 := by
  unfold soutB_1
  rw [View.read_writes_eq_canon _ _ _ (scoverB_1 c i arg2 harg2 arg3 harg3 arg4 harg4 arg5 harg5 arg6 harg6 hcA hcB hcC x0 x1 xs0 xs1)]
  unfold kernelRunB
  dsimp only
  sl_unfold_words
  first | rw [View.canon_unit_zero hz2] | rw [View.canon_cons_unit_zero (S := S1x2048) hz2] | rw [View.canon_cons_unit_zero (S := S1x1) hz2]
  simp only [View.readAt_eq_ld, harg2.read_unread, harg3.read_unread, harg5.read_unread, harg6.read_unread, View.ld_unit_zero (S := S1x512x3) hz3, View.ld_unit_zero (S := S1x3x2048) hz3, View.ld_unit_zero (S := S1x2048) hz2, View.ld_unit_zero (S := S1x1) hz2]

/-- A last tile updates the carried row as a middle tile does. -/
theorem soutC_0_eq (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) :
    soutC_0 c i arg2 harg2 arg3 harg3 arg4 harg4 arg5 harg5 arg6 harg6 hcA hcB hcC x0 x1 xs0 xs1 = k0_pay1 (k0_pay5 x0 x1) xs0 := by
  unfold soutC_0
  rw [View.read_writes_eq_canon _ _ _ (scoverC_0 c i arg2 harg2 arg3 harg3 arg4 harg4 arg5 harg5 arg6 harg6 hcA hcB hcC x0 x1 xs0 xs1)]
  unfold kernelRunC
  dsimp only
  sl_unfold_words
  first | rw [View.canon_unit_zero hz2] | rw [View.canon_cons_unit_zero (S := S1x2048) hz2] | rw [View.canon_cons_unit_zero (S := S1x1) hz2]
  simp only [View.readAt_eq_ld, harg2.read_unread, harg3.read_unread, harg5.read_unread, harg6.read_unread, View.ld_unit_zero (S := S1x512x3) hz3, View.ld_unit_zero (S := S1x3x2048) hz3, View.ld_unit_zero (S := S1x2048) hz2, View.ld_unit_zero (S := S1x1) hz2]

/-- A last tile updates the carried sum as a middle tile does. -/
theorem soutC_1_eq (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) :
    soutC_1 c i arg2 harg2 arg3 harg3 arg4 harg4 arg5 harg5 arg6 harg6 hcA hcB hcC x0 x1 xs0 xs1 = k0_pay2 (k0_pay6 x0 x1) xs1 := by
  unfold soutC_1
  rw [View.read_writes_eq_canon _ _ _ (scoverC_1 c i arg2 harg2 arg3 harg3 arg4 harg4 arg5 harg5 arg6 harg6 hcA hcB hcC x0 x1 xs0 xs1)]
  unfold kernelRunC
  dsimp only
  sl_unfold_words
  first | rw [View.canon_unit_zero hz2] | rw [View.canon_cons_unit_zero (S := S1x2048) hz2] | rw [View.canon_cons_unit_zero (S := S1x1) hz2]
  simp only [View.readAt_eq_ld, harg2.read_unread, harg3.read_unread, harg5.read_unread, harg6.read_unread, View.ld_unit_zero (S := S1x512x3) hz3, View.ld_unit_zero (S := S1x3x2048) hz3, View.ld_unit_zero (S := S1x2048) hz2, View.ld_unit_zero (S := S1x1) hz2]

/-- A last tile's output row is built from the two carried buffers as that tile has just updated them. -/
theorem outC_2_eq (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x2048 .f32) (harg5 : arg5.IsWhole) (arg6 : Memref sig .tc .vmem S1x1 .f32) (harg6 : arg6.IsWhole) (hcA : ¬condA i) (hcB : condB i) (hcC : condC i)
    (x0 : Vec F S1x512x3 .f32) (x1 : Vec F S1x3x2048 .f32) (xs0 : Vec F S1x2048 .f32) (xs1 : Vec F S1x1 .f32) :
    outC_2 c i arg2 harg2 arg3 harg3 arg4 harg4 arg5 harg5 arg6 harg6 hcA hcB hcC x0 x1 xs0 xs1 = k0_pay3 (k0_pay1 (k0_pay5 x0 x1) xs0) (k0_pay2 (k0_pay6 x0 x1) xs1) := by
  unfold outC_2
  rw [View.read_writes_eq_canon _ _ _ (coverC_2 c i arg2 harg2 arg3 harg3 arg4 harg4 arg5 harg5 arg6 harg6 hcA hcB hcC x0 x1 xs0 xs1)]
  unfold kernelRunC
  dsimp only
  sl_unfold_words
  rw [View.canon_unit_zero hz3]
  simp only [View.readCov_unit_zero (S := S1x2048) _ hz2, View.readCov_unit_zero (S := S1x1) _ hz2]
  simp only [View.readAt_eq_ld, harg2.read_unread, harg3.read_unread, harg5.read_unread, harg6.read_unread, View.ld_unit_zero (S := S1x512x3) hz3, View.ld_unit_zero (S := S1x3x2048) hz3, View.ld_unit_zero (S := S1x2048) hz2, View.ld_unit_zero (S := S1x1) hz2]

end Cert.KernelIdeal.KVal

end
-- ==== Proof.KernArray.lean ====
/-
  The carried buffers' contents point by point, as the payloads of the blocks: at a batch's first tile the tile's own
  column minima and sum of row minima; at a later tile the update of what the tile before left; at a last tile the output
  row of the two buffers as just updated. And the output ARRAY after the run: batch `b`'s row is what the batch's last
  tile stored — the only point that writes the row back, and the rows of the 32 batches tile the array.
-/
import proofs.«109606_j62749472194941_2_alg».proof.Proof.KernPieces
import Idealize.ShloMosaic.Lib.ValueIdx

set_option maxRecDepth 16384

noncomputable section

namespace Cert.KernelIdeal.KVal

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

open Idealize.ShloMosaic.ValueIdx

variable (m : (ℓ : Loc nD τ sig) → Buf (Elt F) ℓ) (ρ : Dev nD → PrngReg)

/-! ## The carried buffers, point by point -/

theorem outsAt_congr (c : Dev nD) {n n' : ℕ} (h : n < cfg0.N) (h' : n' < cfg0.N) (e : n = n') :
    outsAt m c n h = outsAt m c n' h' := by subst e; rfl

/-- At a first tile the carried row is the tile's column minima. -/
theorem acc_first (c : Dev nD) (t : Fin cfg0.N) (h0 : t.val % 4 = 0) :
    (outsAt m c t.val t.isLt).2.1 = k0_pay7 (iblk m c 0 t) (iblk m c 1 t) := by
  rw [outsAt_A m c t h0]; dsimp only
  exact soutA_0_eq (F := F) c (grid0.coords t) (ms0 t) (hs0 t) (ms1 t) (hs1 t) (ms2 t) (hs2 t) scM0 (Memref.isWhole_whole _) scM1 (Memref.isWhole_whole _) (A_of t h0) (notB_of t h0) (notC_of0 t h0) (iblk m c 0 t) (iblk m c 1 t)
/-- At a first tile the carried sum is the tile's sum of row minima. -/
theorem sum_first (c : Dev nD) (t : Fin cfg0.N) (h0 : t.val % 4 = 0) :
    (outsAt m c t.val t.isLt).2.2 = k0_pay8 (iblk m c 0 t) (iblk m c 1 t) := by
  rw [outsAt_A m c t h0]; dsimp only
  exact soutA_1_eq (F := F) c (grid0.coords t) (ms0 t) (hs0 t) (ms1 t) (hs1 t) (ms2 t) (hs2 t) scM0 (Memref.isWhole_whole _) scM1 (Memref.isWhole_whole _) (A_of t h0) (notB_of t h0) (notC_of0 t h0) (iblk m c 0 t) (iblk m c 1 t)
/-- At a later tile the carried row is updated by the tile's column minima. -/
theorem acc_later (c : Dev nD) (t : Fin cfg0.N) (h0 : ¬t.val % 4 = 0) :
    (outsAt m c t.val t.isLt).2.1 = k0_pay1 (k0_pay5 (iblk m c 0 t) (iblk m c 1 t)) (outsAt m c (t.val - 1) (prevLt t)).2.1 := by
  by_cases h3 : t.val % 4 = 3
  · rw [outsAt_C m c t h0 h3]; dsimp only
    exact soutC_0_eq (F := F) c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt m c (t.val - 1) (prevLt t)).2.1 (outsAt m c (t.val - 1) (prevLt t)).2.2
  · rw [outsAt_B m c t h0 h3]; dsimp only
    exact soutB_0_eq (F := F) c (grid0.coords t) (ms0 t) (hs0 t) (ms1 t) (hs1 t) (ms2 t) (hs2 t) scM0 (Memref.isWhole_whole _) scM1 (Memref.isWhole_whole _) (notA_of t h0) (B_of t h0) (notC_of t h3) (iblk m c 0 t) (iblk m c 1 t) (outsAt m c (t.val - 1) (prevLt t)).2.1 (outsAt m c (t.val - 1) (prevLt t)).2.2
/-- At a later tile the carried sum grows by the tile's sum of row minima. -/
theorem sum_later (c : Dev nD) (t : Fin cfg0.N) (h0 : ¬t.val % 4 = 0) :
    (outsAt m c t.val t.isLt).2.2 = k0_pay2 (k0_pay6 (iblk m c 0 t) (iblk m c 1 t)) (outsAt m c (t.val - 1) (prevLt t)).2.2 := by
  by_cases h3 : t.val % 4 = 3
  · rw [outsAt_C m c t h0 h3]; dsimp only
    exact soutC_1_eq (F := F) c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt m c (t.val - 1) (prevLt t)).2.1 (outsAt m c (t.val - 1) (prevLt t)).2.2
  · rw [outsAt_B m c t h0 h3]; dsimp only
    exact soutB_1_eq (F := F) c (grid0.coords t) (ms0 t) (hs0 t) (ms1 t) (hs1 t) (ms2 t) (hs2 t) scM0 (Memref.isWhole_whole _) scM1 (Memref.isWhole_whole _) (notA_of t h0) (B_of t h0) (notC_of t h3) (iblk m c 0 t) (iblk m c 1 t) (outsAt m c (t.val - 1) (prevLt t)).2.1 (outsAt m c (t.val - 1) (prevLt t)).2.2
/-- At a last tile the output row is built from the two carried buffers as that tile leaves them. -/
theorem out_last (c : Dev nD) (t : Fin cfg0.N) (h3 : t.val % 4 = 3) :
    (outsAt m c t.val t.isLt).1 = k0_pay3 (outsAt m c t.val t.isLt).2.1 (outsAt m c t.val t.isLt).2.2 := by
  have h0 : ¬t.val % 4 = 0 := by omega
  rw [outsAt_C m c t h0 h3]
  dsimp only
  refine (outC_2_eq (F := F) c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt m c (t.val - 1) (prevLt t)).2.1 (outsAt m c (t.val - 1) (prevLt t)).2.2).trans ?_
  rw [← soutC_0_eq (F := F) c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt m c (t.val - 1) (prevLt t)).2.1 (outsAt m c (t.val - 1) (prevLt t)).2.2,
    ← soutC_1_eq (F := F) c (grid0.coords t) (ms0 t) (hs0 t) (ms1 t) (hs1 t) (ms2 t) (hs2 t) scM0 (Memref.isWhole_whole _) scM1 (Memref.isWhole_whole _) (notA_of t h0) (B_of t h0) (C_of t h3) (iblk m c 0 t) (iblk m c 1 t) (outsAt m c (t.val - 1) (prevLt t)).2.1 (outsAt m c (t.val - 1) (prevLt t)).2.2]

/-! ## The output array -/

/-- Tile `s` of batch `b`, as a grid point. -/
def pt (b : Fin 32) (s : Fin 4) : Fin cfg0.N := ⟨4 * b.val + s.val, by rw [show cfg0.N = 128 from N_0]; omega⟩

/-- The output array after the run: row `b` is what batch `b`'s last tile stored. -/
def Gout (c : Dev nD) : S32x1x128.Idx → Elt F .f32 := fun i =>
  (outsAt m c (pt (i 0) 3).val (pt (i 0) 3).isLt).1 (ix3 0 0 (i 2))

/-- The printed index maps over the grid: the batch is the point's position divided by 4, the tile its remainder. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- What a last tile writes back is its batch's row of `Gout`. -/
theorem flushed_eq (c : Dev nD) (t : Fin cfg0.N) (hf : (cfg0.win 2).flush t = true) :
    (dats m 0 c).flushed 2 t = ((cfg0.win 2).blk t).view.read (Elt F) (Gout m c) := by
  have h3 : t.val % 4 = 3 := (flush0_2 t).mp hf
  have hN : t.val < 128 := lt_of_lt_of_eq t.isLt N_0
  show (cfg0.win 2).cut (grid0.coords t) ((dats m 0 c).after 2 t) = _
  rw [after2]
  obtain ⟨-, -, -, -, -, -, e0, e1, e2⟩ := idx_facts t
  funext j
  rw [View.read_apply]
  show (outsAt m c t.val t.isLt).1 j = Gout m c (((cfg0.win 2).blk t).view.emb j)
  unfold Gout
  have hj0 : (j 0).val < 1 := (j 0).isLt
  have hj1 : (j 1).val < 1 := (j 1).isLt
  have hv : (pt ((((cfg0.win 2).blk t).view.emb j) 0) 3).val = t.val := by
    show 4 * (win0_2.index t (0 : Fin 3) * 1 + 1 * (j 0).val) + 3 = t.val
    omega
  rw [outsAt_congr m c _ t.isLt hv]
  refine congrArg _ ?_
  funext a; apply Fin.ext
  match a with
  | ⟨0, _⟩ => show (j 0).val = 0; omega
  | ⟨1, _⟩ => show (j 1).val = 0; omega
  | ⟨2, _⟩ => show (j 2).val = win0_2.index t (2 : Fin 3) * 128 + 1 * (j 2).val; omega

/-- An index of the output array is in point `t`'s block iff each coordinate is in the block's range on its axis. -/
theorem mem_blk (t : Fin cfg0.N) (i : S32x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v1).slice (win0_2.rect t)).set ↔ _
  rw [View.set_slice_whole, Rect.mem_set_unit]
  exact Iff.rfl

/-- The output array after the run: every row is written back by its batch's last tile. -/
theorem final (c : Dev nD) : (dats m 0 c).arrAt 2 cfg0.N = Gout m c :=
  (dats m 0 c).arrAt_eq_of_cover 2 (Gout m c) (flushed_eq m c) fun i => by
    have hi0 : (i 0).val < 32 := (i 0).isLt
    have hi1 : (i 1).val < 1 := (i 1).isLt
    have hi2 : (i 2).val < 128 := (i 2).isLt
    have hv : (pt (i 0) 3).val = 4 * (i 0).val + 3 := rfl
    refine ⟨pt (i 0) 3, (flush0_2 _).mpr (by rw [hv]; omega), ?_⟩
    rw [mem_blk]
    obtain ⟨-, -, -, -, -, -, e0, e1, e2⟩ := idx_facts (pt (i 0) 3)
    rw [hv] at e0
    intro a
    match a with
    | ⟨0, _⟩ => show win0_2.index (pt (i 0) 3) (0 : Fin 3) * 1 ≤ (i 0).val ∧ (i 0).val < win0_2.index (pt (i 0) 3) (0 : Fin 3) * 1 + 1; omega
    | ⟨1, _⟩ => show win0_2.index (pt (i 0) 3) (1 : Fin 3) * 1 ≤ (i 1).val ∧ (i 1).val < win0_2.index (pt (i 0) 3) (1 : Fin 3) * 1 + 1; omega
    | ⟨2, _⟩ => show win0_2.index (pt (i 0) 3) (2 : Fin 3) * 128 ≤ (i 2).val ∧ (i 2).val < win0_2.index (pt (i 0) 3) (2 : Fin 3) * 128 + 128; omega

end Cert.KernelIdeal.KVal

end
-- ==== Proof.KernTail.lean ====
/-
  The host lines around the region. Before it: the second input array is `model` with its last two axes exchanged.
  After it: the output array's lane 0 and lane 1 are each summed over the 32 batches, each sum divided by 65536, and the
  two quotients added (the chamfer term); the cross entropy of `pred` and `gt` is computed by host lines that are, word
  for word, the reference's; and the total is 5 times the first plus 1 times the second.
-/
import proofs.«109606_j62749472194941_2_alg».proof.Proof.KernArray
import proofs.«109606_j62749472194941_2_alg».proof.Proof.Gen.ReferenceIdeal.Read
import Idealize.ShloMosaic.Lib.StableHlo.Run

set_option maxRecDepth 16384

noncomputable section

namespace Cert.KernelIdeal.KVal

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

open Idealize.ShloMosaic.ValueIdx Idealize.ShloMosaic.StableHlo

variable (m : (ℓ : Loc nD τ sig) → Buf (Elt F) ℓ) (ρ : Dev nD → PrngReg)

/-- The second input array as the region finds it: `model` transposed on its last two axes. -/
theorem V_v0 (c : Dev nD) :
    V m c main_v0 = transpose S32x3x2048 [0, 2, 1] (m ((c : Thread nD τ).loc main_arg1)) transposes_S32x2048x3_S32x3x2048_0_2_1 := by
  show StableHlo.after hostOps0 (fun b => m (c, b)) (Proc.devRef .tc main_v0) = _
  after_results

/-- Lane `l` of the output array summed over the batches, as the host lines compute it. -/
def laneSum (off : Fin 2 → Nat) (h : S32x128.Slices off S32x1) (G : S32x1x128.Idx → Elt F .f32) : (⟨S_, .f32⟩ : BufTy).Contents (Elt F) :=
  Host.reduceAdd (shapeCast S32 (extractStridedSlice S32x1 off (shapeCast S32x128 G shapeCasts_S32x1x128_S32x128) h) shapeCasts_S32x1_S32)
    (constant S_ .f32 0x00000000#32) reducesTo_S32_S_d0 h_S_

/-- The chamfer term from the two sums: each divided by 65536, then added. -/
def cdOf (s1 s2 : (⟨S_, .f32⟩ : BufTy).Contents (Elt F)) : (⟨S_, .f32⟩ : BufTy).Contents (Elt F) :=
  addf (Host.divf s1 (constant S_ .f32 0x47800000#32)) (Host.divf s2 (constant S_ .f32 0x47800000#32))

/-- The total from the two terms: 5 times the first plus 1 times the second. -/
def totOf (cd ce : (⟨S_, .f32⟩ : BufTy).Contents (Elt F)) : (⟨S_, .f32⟩ : BufTy).Contents (Elt F) :=
  addf (mulf (constant S_ .f32 0x40A00000#32) cd) (mulf (constant S_ .f32 0x3F800000#32) ce)

/-- The output array, where the lines after the region read it. -/
theorem withArrays_v1 (c : Dev nD) :
    Pipeline.withArrays (cfgs 0).spec c (V0 m c) (fun w => (dats m 0 c).arrAt w (cfgs 0).N) (Proc.devRef .tc main_v1) = Gout m c :=
  (Pipeline.withArrays_arr spec0 launch0.win.arr_inj c _ _ 2).trans (final m c)

set_option maxHeartbeats 4000000 in
/-- The chamfer term after the run. -/
theorem tail11 (c : Dev nD) :
    Pipeline.afterTail₀ cfgs (dats m) 0 (V0 m) [hostOps1, hostOps1_1, hostOps1_2, hostOps1_3, hostOps1_4] c main_v11
      = cdOf (laneSum ![0, 0] slices_S32x128_S32x1_0_0 (Gout m c)) (laneSum ![0, 1] slices_S32x128_S32x1_0_1 (Gout m c)) := by
  unfold Pipeline.afterTail₀
  simp only [hostOps1, hostOps1_1, hostOps1_2, hostOps1_3, hostOps1_4, List.flatten_cons, List.flatten_nil, List.append_nil, List.cons_append, List.nil_append]
  after_results_simp
  rw [withArrays_v1]
  rfl

set_option maxHeartbeats 8000000 in
/-- The cross entropy after the run is the reference's stage of the same two arguments. -/
theorem tail18 (c : Dev nD) :
    Pipeline.afterTail₀ cfgs (dats m) 0 (V0 m) [hostOps1, hostOps1_1, hostOps1_2, hostOps1_3, hostOps1_4] c main_v18
      = Cert.ReferenceIdeal.Read.val_main_v26 (F := F) (m ((c : Thread nD τ).loc main_arg2)) (m ((c : Thread nD τ).loc main_arg3)) := by
  unfold Pipeline.afterTail₀
  simp only [hostOps1, hostOps1_1, hostOps1_2, hostOps1_3, hostOps1_4, List.flatten_cons, List.flatten_nil, List.append_nil, List.cons_append, List.nil_append]
  after_results_simp
  rw [Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3))]
  rw [show V0 m c (Proc.devRef .tc main_arg2) = m ((c : Thread nD τ).loc main_arg2) from V_main_arg2 m c,
    show V0 m c (Proc.devRef .tc main_arg3) = m ((c : Thread nD τ).loc main_arg3) from V_main_arg3 m c]
  rfl

set_option maxHeartbeats 8000000 in
/-- The total after the run, from the two terms after the run. -/
theorem tail21 (c : Dev nD) :
    Pipeline.afterTail₀ cfgs (dats m) 0 (V0 m) [hostOps1, hostOps1_1, hostOps1_2, hostOps1_3, hostOps1_4] c main_v21
      = totOf (Pipeline.afterTail₀ cfgs (dats m) 0 (V0 m) [hostOps1, hostOps1_1, hostOps1_2, hostOps1_3, hostOps1_4] c main_v11)
          (Pipeline.afterTail₀ cfgs (dats m) 0 (V0 m) [hostOps1, hostOps1_1, hostOps1_2, hostOps1_3, hostOps1_4] c main_v18) := by
  unfold Pipeline.afterTail₀
  simp only [hostOps1, hostOps1_1, hostOps1_2, hostOps1_3, hostOps1_4, List.flatten_cons, List.flatten_nil, List.append_nil, List.cons_append, List.nil_append]
  after_results_simp
  rfl

end Cert.KernelIdeal.KVal

end
-- ==== Proof.Spec.lean ====
/-
  The specification of the two chamfer sums, stated over the extended reals with no program in sight.

  For two clouds of 2048 points of ℝ³ per batch entry (32 entries), `sqDist b n m` is the squared distance of point `n`
  of the first cloud to point `m` of the second, in the expanded form  (|p|² + |q|²) − 2·⟨p, q⟩ ; `sumRowMin` adds, over
  every point of the first cloud, its least squared distance to the second cloud, and `sumColMin` the same with the two
  clouds' roles exchanged.

  Conventions, chosen so that both programs reach these terms without evaluating anything:
  * the factor 2 is kept as the word it is printed as, `Ideal.ofBits .f32 0x40000000#32` (never evaluated: the same word
    stands on both sides), on the LEFT of the product, and the difference is `(a + b) - two * c` with the extended reals'
    own `+`, `-`, `*` — the ideal instance's `addf`, `subf`, `mulf` are these by definition;
  * each of the three inner sums is a plain `∑ k : Fin 3` (no leading zero);
  * a least value over `Fin 2048` is `Finset.univ.inf`: by definition `Finset.inf s f = s.fold (· ⊓ ·) ⊤ f`, and a
    minimum-reduce from +∞ reads, at the ideal instance, as the fold of `min` from `⊤` over the reduced axis
    (`inf_eq_fold_min` below is the bridge).
-/
import Idealize.ShloMosaic.PureOps.Ideal
import Idealize.ShloMosaic.Lib.ValueIdx

noncomputable section

open scoped BigOperators

namespace Cert.Spec

open Idealize.ShloMosaic Idealize.ShloMosaic.ValueIdx

/-- The shape of both point-cloud arguments: 32 batch entries, 2048 points, 3 coordinates. -/
abbrev SPts : Shape := ⟨3, ![32, 2048, 3]⟩

/-- The word of the float literal 2.0, read at the ideal instance; kept unevaluated. -/
abbrev two : EReal := Ideal.ofBits .f32 0x40000000#32

/-- |p|² for point `n` of batch entry `b` of a cloud. -/
def sqNorm (x : SPts.Idx → EReal) (b : Fin 32) (n : Fin 2048) : EReal :=
  ∑ k : Fin 3, x (ix3 b n k) * x (ix3 b n k)

/-- ⟨p, q⟩ for point `n` of the first cloud and point `m` of the second, in batch entry `b`. -/
def inner (x0 x1 : SPts.Idx → EReal) (b : Fin 32) (n m : Fin 2048) : EReal :=
  ∑ k : Fin 3, x0 (ix3 b n k) * x1 (ix3 b m k)

/-- The squared distance in expanded form: (|p|² + |q|²) − 2·⟨p, q⟩. -/
def sqDist (x0 x1 : SPts.Idx → EReal) (b : Fin 32) (n m : Fin 2048) : EReal :=
  (sqNorm x0 b n + sqNorm x1 b m) - two * inner x0 x1 b n m

/-- Over every point of the first cloud, its least squared distance to the second cloud, summed. -/
def sumRowMin (x0 x1 : SPts.Idx → EReal) : EReal :=
  ∑ b : Fin 32, ∑ n : Fin 2048, (Finset.univ : Finset (Fin 2048)).inf fun m => sqDist x0 x1 b n m

/-- Over every point of the second cloud, its least squared distance to the first cloud, summed. -/
def sumColMin (x0 x1 : SPts.Idx → EReal) : EReal :=
  ∑ b : Fin 32, ∑ m : Fin 2048, (Finset.univ : Finset (Fin 2048)).inf fun n => sqDist x0 x1 b n m

/-- `sqDist` with its three sums spelt out. -/
theorem sqDist_def (x0 x1 : SPts.Idx → EReal) (b : Fin 32) (n m : Fin 2048) :
    sqDist x0 x1 b n m
      = ((∑ k : Fin 3, x0 (ix3 b n k) * x0 (ix3 b n k)) + (∑ k : Fin 3, x1 (ix3 b m k) * x1 (ix3 b m k)))
          - Ideal.ofBits .f32 0x40000000#32 * (∑ k : Fin 3, x0 (ix3 b n k) * x1 (ix3 b m k)) := rfl

/-- A least value over a finite set is the fold of `min` from `⊤`: the form a minimum-reduce from +∞ takes. -/
theorem inf_eq_fold_min {ι : Type*} (s : Finset ι) (f : ι → EReal) :
    s.inf f = s.fold min ⊤ f := rfl

/-- The word of +∞ reads as `⊤`. -/
theorem ofBits_posInf : Ideal.ofBits .f32 0x7F800000#32 = (⊤ : EReal) := by
  simp [Ideal.ofBits, Ideal.ieee]

end Cert.Spec

end
-- ==== Proof.LibLayout.lean ====
/-
  Layout operations and one-axis reductions of rank-2 vectors read at an index given by coordinates, at the ideal
  instance: the column forms of a broadcast and of a shape cast, a sum and a least value along either axis of a matrix,
  and a select on "the lane number is c". General lemmas over the library; no program.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LibLayout

open Idealize.ShloMosaic Idealize.ShloMosaic.ValueIdx

/-! ## The column forms of a broadcast and of a shape cast -/

section Layout
variable {α : Type}

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## One axis of a matrix reduced: the index put back -/

/-- Over result index `i` of a reduction along the columns, coordinate `k` put back is `(i, k)`. -/
theorem lift2_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  match c with
  | ⟨0, _⟩ => rfl
  | ⟨1, _⟩ => rfl

/-- Over result index `j` of a reduction along the rows, coordinate `k` put back is `(k, j)`. -/
theorem lift2_axis0 {a b : ℕ} (h : (⟨2, ![a, b]⟩ : Shape).Reduces [0] ⟨1, ![b]⟩) (j : Fin b)
    (k : Fin ((⟨2, ![a, b]⟩ : Shape).size 0)) : h.lift (ix1 j) k = ix2 (⟨k.val, k.isLt⟩ : Fin a) j := by
  funext c; apply Fin.ext
  match c with
  | ⟨0, _⟩ => rfl
  | ⟨1, _⟩ => rfl

/-! ## Sums along an axis -/

section Sums
variable {φ : FTy}

/-- A sum along the columns of a matrix, at row `i`: the sum of that row. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift2_axis1 h i k))

/-- A sum along the rows of a matrix, at column `j`: the sum of that column. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift2_axis0 h j k))

end Sums

/-! ## Least values along an axis, from +∞ -/

/-- The word of +∞ reads as `⊤`. -/
theorem ofBits_posInf_f32 : Ideal.ofBits .f32 0x7F800000#32 = (⊤ : EReal) := by
  simp [Ideal.ofBits, Ideal.ieee]

/-- A minimum-reduction over one axis, read at the ideal instance: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A least value along the columns of a matrix from +∞, at row `i`: the least entry of that row. -/
theorem multiReduction_min_axis1 {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = FKind.minimumf.neutral .f32 hφ) (i : Fin a) :
    multiReduction .minimumf [1] ⟨1, ![a]⟩ src 0x7F800000#32 h hφ hacc (ix1 i)
      = (Finset.univ : Finset (Fin b)).inf fun k => src (ix2 i k) := by
  refine (multiReduction_minimumf_single src _ h hφ hacc (ix1 i)).trans ?_
  have hf : (src ∘ h.lift (ix1 i)) = fun k : Fin b => src (ix2 i k) :=
    funext fun k => congrArg src (lift2_axis1 h i k)
  rw [Ideal.ofBits_def, ofBits_posInf_f32]
  exact congrArg (fun f => Finset.fold min (⊤ : EReal) f (Finset.univ : Finset (Fin b))) hf

/-- A least value along the rows of a matrix from +∞, at column `j`: the least entry of that column. -/
theorem multiReduction_min_axis0 {a b : ℕ} (src : FVec Ideal ⟨2, ![a, b]⟩ .f32)
    (h : (⟨2, ![a, b]⟩ : Shape).Reduces [0] ⟨1, ![b]⟩) (hφ : FKind.Formats .f32)
    (hacc : (0x7F800000#32 : BitVec 32) = FKind.minimumf.neutral .f32 hφ) (j : Fin b) :
    multiReduction .minimumf [0] ⟨1, ![b]⟩ src 0x7F800000#32 h hφ hacc (ix1 j)
      = (Finset.univ : Finset (Fin a)).inf fun k => src (ix2 k j) := by
  refine (multiReduction_minimumf_single src _ h hφ hacc (ix1 j)).trans ?_
  have hf : (src ∘ h.lift (ix1 j)) = fun k : Fin a => src (ix2 k j) :=
    funext fun k => congrArg src (lift2_axis0 h j k)
  rw [Ideal.ofBits_def, ofBits_posInf_f32]
  exact congrArg (fun f => Finset.fold min (⊤ : EReal) f (Finset.univ : Finset (Fin a))) hf

/-! ## A select on "the lane number is c" -/

/-- An integer comparison of vectors at an index compares the elements. -/
theorem cmpi_apply {s : Shape} {w : Nat} (p : CmpIPredicate) (x y : IVec s w) (i : s.Idx) :
    cmpi p x y i = IntOp.cmpi p (x i) (y i) := rfl

/-- A select whose condition is "the 32-bit word of `n` equals the word of `c`", both below 2³², is the `if` on `n = c`. -/
theorem select_lane_eq {α : Type} (n c : Nat) (hn : n < 2 ^ 32) (hc : c < 2 ^ 32) (A B : α) :
    Scalar.select (IntOp.cmpi .eq (BitVec.ofNat 32 n) (BitVec.ofNat 32 c)) A B = if n = c then A else B := by
  have hc' : IntOp.cmpi .eq (BitVec.ofNat 32 n) (BitVec.ofNat 32 c)
      = BitVec.ofBool (BitVec.ofNat 32 n == BitVec.ofNat 32 c) := rfl
  rw [hc']
  unfold Scalar.select
  by_cases h : n = c
  · subst h; simp
  · have hne : ¬ (BitVec.ofNat 32 n = BitVec.ofNat 32 c) := fun e => h (by
      have e' := congrArg BitVec.toNat e
      rw [BitVec.toNat_ofNat, BitVec.toNat_ofNat, Nat.mod_eq_of_lt hn, Nat.mod_eq_of_lt hc] at e'
      exact e')
    have hb : (BitVec.ofNat 32 n == BitVec.ofNat 32 c) = false := by
      rw [beq_eq_false_iff_ne]; exact hne
    rw [hb, if_neg h]
    exact if_neg (by decide)

end Cert.LibLayout

end
-- ==== Proof.KernPayloads.lean ====
/-
  The kernel body's payloads read at an index, at the ideal instance.

  One grid point handles one tile of 512 points of the first cloud (`x0`, 512 points by 3 coordinates) against the whole
  second cloud of its batch entry, stored transposed (`x1`, 3 coordinates by 2048 points). `blkDist r q` is the squared
  distance of tile point `r` to point `q` in the expanded form (|p|² + |q|²) − 2·⟨p, q⟩; the body's payloads are that
  matrix, its least values along either axis, the sum of the row minima, and the updates of the two running values.
-/
import proofs.«109606_j62749472194941_2_alg».proof.Proof.Gen.KernelIdeal.Skeleton
import proofs.«109606_j62749472194941_2_alg».proof.Proof.Spec
import proofs.«109606_j62749472194941_2_alg».proof.Proof.LibLayout

noncomputable section

open scoped BigOperators

namespace Cert.KernelIdeal.PayVal

open Cert.KernelIdeal Cert.KernelIdeal.Gen Idealize.ShloMosaic Idealize.ShloMosaic.ValueIdx Cert.LibLayout

/-- The squared distance of tile point `r` to point `q` of the transposed second cloud: (|p|² + |q|²) − 2·⟨p, q⟩. -/
def blkDist (x0 : Vec Ideal S1x512x3 .f32) (x1 : Vec Ideal S1x3x2048 .f32) (r : Fin 512) (q : Fin 2048) : EReal :=
  ((∑ k : Fin 3, x0 (ix3 0 r k) * x0 (ix3 0 r k)) + (∑ k : Fin 3, x1 (ix3 0 k q) * x1 (ix3 0 k q)))
    - Spec.two * (∑ k : Fin 3, x0 (ix3 0 r k) * x1 (ix3 0 k q))

/-- The matrix of squared distances of the tile, read at (r, q). -/
theorem pay4_apply (x0 : Vec Ideal S1x512x3 .f32) (x1 : Vec Ideal S1x3x2048 .f32) (r : Fin 512) (q : Fin 2048) :
    k0_pay4 (F := Ideal) x0 x1 (ix2 r q) = blkDist x0 x1 r q := by
  unfold k0_pay4 blkDist
  simp only [subf_apply, addf_apply, mulf_apply, broadcast_apply, broadcastTo_a1_ab_apply, broadcastTo_1b_ab_apply,
    shapeCast_a_a1_apply, shapeCast_a_1a_apply, slice2_axis1_eq, slice2_axis0_eq, shapeCast_1ab_ab_apply]
  refine congrArg₂ (· - ·) (congrArg₂ (· + ·) ?_ ?_) (congrArg (Spec.two * ·) ?_)
  · exact (multiReduction_add_axis1 _ _ _ _ _ r).trans
      (Finset.sum_congr rfl fun k _ => by rw [mulf_apply, shapeCast_1ab_ab_apply])
  · exact (multiReduction_add_axis0 _ _ _ _ _ q).trans
      (Finset.sum_congr rfl fun k _ => by rw [mulf_apply, shapeCast_1ab_ab_apply])
  · rw [Fin.sum_univ_three]
    rfl

/-- The column minima of the tile's matrix: at column `q`, the least squared distance from the tile's points to point `q`. -/
theorem pay5_apply (x0 : Vec Ideal S1x512x3 .f32) (x1 : Vec Ideal S1x3x2048 .f32) (q : Fin 2048) :
    k0_pay5 (F := Ideal) x0 x1 (ix2 0 q) = (Finset.univ : Finset (Fin 512)).inf fun r => blkDist x0 x1 r q := by
  unfold k0_pay5
  simp only [shapeCast_a_1a_apply]
  exact (multiReduction_min_axis0 _ _ _ _ q).trans
    (congrArg (Finset.univ : Finset (Fin 512)).inf (funext fun r => pay4_apply x0 x1 r q))

/-- The sum over the tile's points of their least squared distance to the second cloud. -/
theorem pay6_apply (x0 : Vec Ideal S1x512x3 .f32) (x1 : Vec Ideal S1x3x2048 .f32) :
    k0_pay6 (F := Ideal) x0 x1 (ix2 0 0) = ∑ r : Fin 512, (Finset.univ : Finset (Fin 2048)).inf fun q => blkDist x0 x1 r q := by
  unfold k0_pay6
  simp only [shapeCast_a_1a_apply]
  refine (multiReduction_add_axis0 _ _ _ _ _ (0 : Fin 1)).trans (Finset.sum_congr rfl fun r _ => ?_)
  rw [shapeCast_a_a1_apply]
  exact (multiReduction_min_axis1 _ _ _ _ r).trans
    (congrArg (Finset.univ : Finset (Fin 2048)).inf (funext fun q => pay4_apply x0 x1 r q))

/-- The stored column minima are the column minima (a cast to the same shape). -/
theorem pay7_eq (x0 : Vec Ideal S1x512x3 .f32) (x1 : Vec Ideal S1x3x2048 .f32) :
    k0_pay7 (F := Ideal) x0 x1 = k0_pay5 x0 x1 := by
  unfold k0_pay7
  exact shapeCast_self _ _

/-- The stored sum of row minima is the sum of row minima (a cast to the same shape). -/
theorem pay8_eq (x0 : Vec Ideal S1x512x3 .f32) (x1 : Vec Ideal S1x3x2048 .f32) :
    k0_pay8 (F := Ideal) x0 x1 = k0_pay6 x0 x1 := by
  unfold k0_pay8
  exact shapeCast_self _ _

/-- The running column minima updated: at column `q`, the lesser of the value so far and this tile's. -/
theorem pay1_apply (v36 v48 : Vec Ideal S1x2048 .f32) (q : Fin 2048) :
    k0_pay1 (F := Ideal) v36 v48 (ix2 0 q) = min (v48 (ix2 0 q)) (v36 (ix2 0 q)) := by
  unfold k0_pay1
  rw [shapeCast_self]
  rfl

/-- The running sum updated: the value so far plus this tile's. -/
theorem pay2_apply (v38 v53 : Vec Ideal S1x1 .f32) :
    k0_pay2 (F := Ideal) v38 v53 (ix2 0 0) = v53 (ix2 0 0) + v38 (ix2 0 0) := by
  unfold k0_pay2
  rw [shapeCast_self]
  rfl

/-- The output row of a batch entry's last tile: lane 0 holds the running sum, lane 1 the sum of the running column
    minima, every other lane zero. -/
theorem pay3_apply (v48 : Vec Ideal S1x2048 .f32) (v54 : Vec Ideal S1x1 .f32) (l : Fin 128) :
    k0_pay3 (F := Ideal) v48 v54 (ix3 0 0 l)
      = if l.val = 0 then v54 (ix2 0 0) else if l.val = 1 then ∑ q : Fin 2048, v48 (ix2 0 q) else 0 := by
  unfold k0_pay3
  simp only [shapeCast_ab_1ab_apply, select_apply, cmpi_apply, broadcast_apply, broadcastTo_a1_ab_apply, shapeCast_self,
    shapeCast_a_1a_apply]
  have hi : iota Kind.tc S1x128 32 [1] iota_S1x128_d1_w32 (ix2 (0 : Fin 1) l) = BitVec.ofNat 32 l.val :=
    iota_single_apply _ _ _ _ _ _
  have hs : multiReduction (F := Ideal) FKind.add [1] S1 v48 0x00000000#32 reduces_S1x2048_S1 (.inl rfl) rfl (ix1 0)
      = ∑ q : Fin 2048, v48 (ix2 0 q) :=
    multiReduction_add_axis1 v48 _ _ _ _ (0 : Fin 1)
  have hl : l.val < 2 ^ 32 := by have := l.isLt; omega
  rw [hi, hs, select_lane_eq l.val 0 hl (by omega), select_lane_eq l.val 1 hl (by omega), Ideal.ofBits_def,
    Ideal.ofBits_zero_f32]

end Cert.KernelIdeal.PayVal

end
-- ==== Proof.LibTiles.lean ====
/-
  Regrouping a sum or a least value over `Fin (T * R)` by tiles: the index `n` is written `t * R + r` with the tile
  `t : Fin T` and the offset `r : Fin R` inside it. General lemmas over plain Mathlib; no program, no float instance.
-/
import Mathlib.Algebra.BigOperators.Fin
import Mathlib.Data.Finset.Lattice.Fold
import Mathlib.Data.Finset.Lattice.Prod
import Mathlib.Data.EReal.Basic
import Mathlib.Data.Fintype.BigOperators
import Mathlib.Logic.Equiv.Fin.Basic
import Mathlib.Order.Fin.Basic

open scoped BigOperators

namespace Cert.LibTiles

/-- The point of `Fin (T * R)` at offset `r` inside tile `t`: its value is `t * R + r`. -/
def tilePt {T R : Nat} (t : Fin T) (r : Fin R) : Fin (T * R) :=
  ⟨t.val * R + r.val, by
    have ht := t.isLt
    have hr := r.isLt
    calc t.val * R + r.val < t.val * R + R := Nat.add_lt_add_left hr _
      _ = (t.val + 1) * R := (Nat.succ_mul _ _).symm
      _ ≤ T * R := Nat.mul_le_mul_right _ ht⟩

/-- The value of a tile point, in coordinates. -/
@[simp] theorem tilePt_val {T R : Nat} (t : Fin T) (r : Fin R) : (tilePt t r).val = t.val * R + r.val := rfl

/-- A tile point is Mathlib's `finProdFinEquiv` at the pair (tile, offset). -/
theorem tilePt_eq_finProdFinEquiv {T R : Nat} (t : Fin T) (r : Fin R) : tilePt t r = finProdFinEquiv (t, r) :=
  Fin.ext (by
    show t.val * R + r.val = r.val + R * t.val
    rw [Nat.add_comm, Nat.mul_comm])

/-- Tile and offset determine the point, and conversely: pairs (tile, offset) are the points of `Fin (T * R)`. -/
def tileEquiv (T R : Nat) : Fin T × Fin R ≃ Fin (T * R) :=
  finProdFinEquiv

/-- The bijection sends (tile, offset) to the tile point. -/
theorem tileEquiv_apply {T R : Nat} (t : Fin T) (r : Fin R) : tileEquiv T R (t, r) = tilePt t r :=
  (tilePt_eq_finProdFinEquiv t r).symm

/-- Every point of `Fin (T * R)` is a tile point: tile `n / R`, offset `n % R`. -/
theorem exists_tilePt {T R : Nat} (n : Fin (T * R)) : ∃ (t : Fin T) (r : Fin R), n = tilePt t r := by
  refine ⟨((tileEquiv T R).symm n).1, ((tileEquiv T R).symm n).2, ?_⟩
  rw [← tileEquiv_apply]
  exact ((tileEquiv T R).apply_symm_apply n).symm

/-- Tile points of different (tile, offset) pairs are different. -/
theorem tilePt_injective {T R : Nat} {t t' : Fin T} {r r' : Fin R} (h : tilePt t r = tilePt t' r') : t = t' ∧ r = r' := by
  rw [← tileEquiv_apply, ← tileEquiv_apply] at h
  exact Prod.ext_iff.mp ((tileEquiv T R).injective h)

/-- A SUM OVER `Fin (T * R)` BY TILES: the sum over the tiles of the sum over the offsets inside each. -/
theorem sum_tiles {M : Type*} [AddCommMonoid M] {T R : Nat} (f : Fin (T * R) → M) :
    ∑ n : Fin (T * R), f n = ∑ t : Fin T, ∑ r : Fin R, f (tilePt t r) := by
  rw [← (tileEquiv T R).sum_comp f, Fintype.sum_prod_type]
  exact Finset.sum_congr rfl fun t _ => Finset.sum_congr rfl fun r _ => congrArg f (tileEquiv_apply t r)

/-- A LEAST VALUE OVER `Fin (T * R)` BY TILES: the least over the tiles of the least over the offsets inside each
    (in any meet-semilattice with a top; the extended reals are one). -/
theorem inf_tiles {L : Type*} [SemilatticeInf L] [OrderTop L] {T R : Nat} (g : Fin (T * R) → L) :
    (Finset.univ : Finset (Fin (T * R))).inf g
      = (Finset.univ : Finset (Fin T)).inf fun t => (Finset.univ : Finset (Fin R)).inf fun r => g (tilePt t r) := by
  have h1 : (Finset.univ : Finset (Fin (T * R))).inf g
      = (Finset.univ : Finset (Fin T × Fin R)).inf (g ∘ (tileEquiv T R)) := by
    rw [← Finset.map_univ_equiv (tileEquiv T R), Finset.inf_map]
    rfl
  rw [h1, ← Finset.univ_product_univ, Finset.inf_product_left]
  exact Finset.inf_congr rfl fun t _ => Finset.inf_congr rfl fun r _ => congrArg g (tileEquiv_apply t r)

/-- A least value over four things, unrolled from the left, with the lattice's meet. -/
theorem inf_fin4 {L : Type*} [SemilatticeInf L] [OrderTop L] (l : Fin 4 → L) :
    ((l 0 ⊓ l 1) ⊓ l 2) ⊓ l 3 = (Finset.univ : Finset (Fin 4)).inf l := by
  have hu : (Finset.univ : Finset (Fin 4)) = {0, 1, 2, 3} := by decide
  rw [hu, Finset.inf_insert, Finset.inf_insert, Finset.inf_insert, Finset.inf_singleton, inf_assoc, inf_assoc]

/-- A least value over four things, unrolled from the left, with a linear order's `min`. -/
theorem min_fin4 {L : Type*} [LinearOrder L] [OrderTop L] (l : Fin 4 → L) :
    min (min (min (l 0) (l 1)) (l 2)) (l 3) = (Finset.univ : Finset (Fin 4)).inf l :=
  inf_fin4 l

/-- The same unrolled form at the extended reals, stated there so that it applies with no instance to unify. -/
theorem min_fin4_ereal (l : Fin 4 → EReal) :
    min (min (min (l 0) (l 1)) (l 2)) (l 3) = (Finset.univ : Finset (Fin 4)).inf l :=
  inf_fin4 l

/-- A least value over `Fin (4 * R)` of extended reals: the four tiles' least values, combined from the left. -/
theorem inf_four_tiles_ereal {R : Nat} (g : Fin (4 * R) → EReal) :
    (Finset.univ : Finset (Fin (4 * R))).inf g
      = min (min (min ((Finset.univ : Finset (Fin R)).inf fun r => g (tilePt 0 r))
                      ((Finset.univ : Finset (Fin R)).inf fun r => g (tilePt 1 r)))
                 ((Finset.univ : Finset (Fin R)).inf fun r => g (tilePt 2 r)))
            ((Finset.univ : Finset (Fin R)).inf fun r => g (tilePt 3 r)) := by
  rw [inf_tiles g]
  exact (min_fin4_ereal fun t => (Finset.univ : Finset (Fin R)).inf fun r => g (tilePt t r)).symm

end Cert.LibTiles
-- ==== Proof.KernValue.lean ====
/-
  The kernel's mathematics, at the extended reals. A block of the first input at tile `s` of batch `b` is rows
  `512 s … 512 s + 511` of `inst_shape[b]`; the block of the second input is `model[b]` with its axes exchanged. So the
  tile's squared distances are the specification's `sqDist` at rows `512 s + r`; the carried row after the batch's four
  tiles is the minimum over the four tiles of the tile's column minima, that is the column minimum over all 2048 rows; the
  carried sum is the sum over the four tiles of the tile's sums of row minima, that is the sum over all 2048 rows. The
  output row's lane 0 and lane 1 are those two numbers, the second summed over the columns.
-/
import proofs.«109606_j62749472194941_2_alg».proof.Proof.KernTail
import proofs.«109606_j62749472194941_2_alg».proof.Proof.KernPayloads
import proofs.«109606_j62749472194941_2_alg».proof.Proof.LibTiles
import proofs.«109606_j62749472194941_2_alg».proof.Proof.Spec

set_option maxRecDepth 16384

noncomputable section

namespace Cert.KernelIdeal.KVal

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

open Idealize.ShloMosaic.ValueIdx Cert.KernelIdeal.PayVal Cert.LibTiles

/-! ## The blocks, read at an index -/

section Blocks
variable (m : (ℓ : Loc nD τ sig) → Buf (Elt F) ℓ)

/-- Tile `s` of batch `b` of the first input: rows `512 s + r` of the batch. -/
theorem iblk0_pt (c : Dev nD) (b : Fin 32) (s : Fin 4) (r : Fin 512) (k : Fin 3) :
    (iblk m c 0 (pt b s) : Vec F S1x512x3 .f32) (ix3 0 r k) = m ((c : Thread nD τ).loc main_arg0) (ix3 b (tilePt s r) k) := by
  unfold iblk
  rw [View.read_apply]
  show V m c main_arg0 _ = _
  rw [V_main_arg0]
  refine congrArg _ ?_
  obtain ⟨e0, e1, e2, -⟩ := idx_facts (pt b s)
  have hv : (pt b s).val = 4 * b.val + s.val := rfl
  have hs : s.val < 4 := s.isLt
  funext a; apply Fin.ext
  match a with
  | ⟨0, _⟩ => show win0_0.index (pt b s) (0 : Fin 3) * 1 + 1 * 0 = b.val; omega
  | ⟨1, _⟩ => show win0_0.index (pt b s) (1 : Fin 3) * 512 + 1 * r.val = s.val * 512 + r.val; rw [e1, hv]; omega
  | ⟨2, _⟩ => show win0_0.index (pt b s) (2 : Fin 3) * 3 + 1 * k.val = k.val; omega

/-- The block of the second input at any tile of batch `b`: `model[b]` with its two axes exchanged. -/
theorem iblk1_pt (c : Dev nD) (b : Fin 32) (s : Fin 4) (k : Fin 3) (q : Fin 2048) :
    (iblk m c 1 (pt b s) : Vec F S1x3x2048 .f32) (ix3 0 k q) = m ((c : Thread nD τ).loc main_arg1) (ix3 b q k) := by
  unfold iblk
  rw [View.read_apply]
  show V m c main_v0 _ = _
  rw [V_v0]
  obtain ⟨-, -, -, e0, e1, e2, -⟩ := idx_facts (pt b s)
  have hv : (pt b s).val = 4 * b.val + s.val := rfl
  have hs : s.val < 4 := s.isLt
  refine transpose_apply _ _ _ _ (ix3 b q k) ?_
  intro a
  match a with
  | ⟨0, _⟩ => show b.val = win0_1.index (pt b s) (0 : Fin 3) * 1 + 1 * 0; omega
  | ⟨1, _⟩ => show k.val = win0_1.index (pt b s) (1 : Fin 3) * 3 + 1 * k.val; omega
  | ⟨2, _⟩ => show q.val = win0_1.index (pt b s) (2 : Fin 3) * 2048 + 1 * q.val; omega

end Blocks

/-! ## A batch's four tiles -/

variable (m : (ℓ : Loc nD τ sig) → Buf (Elt Ideal) ℓ)

/-- `inst_shape` and `model` as the specification reads them. -/
abbrev A0 (c : Dev nD) : Spec.SPts.Idx → EReal := m ((c : Thread nD τ).loc main_arg0)
abbrev A1 (c : Dev nD) : Spec.SPts.Idx → EReal := m ((c : Thread nD τ).loc main_arg1)

/-- The tile's squared distances are the specification's, at the tile's rows. -/
theorem blk_eq (c : Dev nD) (b : Fin 32) (s : Fin 4) (r : Fin 512) (q : Fin 2048) :
    blkDist (iblk m c 0 (pt b s)) (iblk m c 1 (pt b s)) r q = Spec.sqDist (A0 m c) (A1 m c) b (tilePt s r) q := by
  unfold blkDist Spec.sqDist Spec.sqNorm Spec.inner
  simp only [iblk0_pt, iblk1_pt]

/-- The tile's column minima. -/
theorem pay5_blk (c : Dev nD) (b : Fin 32) (s : Fin 4) (q : Fin 2048) :
    k0_pay5 (F := Ideal) (iblk m c 0 (pt b s)) (iblk m c 1 (pt b s)) (ix2 0 q)
      = (Finset.univ : Finset (Fin 512)).inf fun r => Spec.sqDist (A0 m c) (A1 m c) b (tilePt s r) q :=
  (pay5_apply (iblk m c 0 (pt b s)) (iblk m c 1 (pt b s)) q).trans (by simp only [blk_eq])

/-- The tile's sum of row minima. -/
theorem pay6_blk (c : Dev nD) (b : Fin 32) (s : Fin 4) :
    k0_pay6 (F := Ideal) (iblk m c 0 (pt b s)) (iblk m c 1 (pt b s)) (ix2 0 0)
      = ∑ r : Fin 512, (Finset.univ : Finset (Fin 2048)).inf fun q => Spec.sqDist (A0 m c) (A1 m c) b (tilePt s r) q :=
  (pay6_apply (iblk m c 0 (pt b s)) (iblk m c 1 (pt b s))).trans (by simp only [blk_eq])

theorem pt_mod (b : Fin 32) (s : Fin 4) : (pt b s).val % 4 = s.val := by
  show (4 * b.val + s.val) % 4 = s.val
  have := s.isLt; omega

/-- The column minimum over tile `s` of batch `b`. -/
abbrev colTile (c : Dev nD) (b : Fin 32) (s : Fin 4) (q : Fin 2048) : EReal :=
  (Finset.univ : Finset (Fin 512)).inf fun r => Spec.sqDist (A0 m c) (A1 m c) b (tilePt s r) q
/-- The sum of row minima over tile `s` of batch `b`. -/
abbrev rowTile (c : Dev nD) (b : Fin 32) (s : Fin 4) : EReal :=
  ∑ r : Fin 512, (Finset.univ : Finset (Fin 2048)).inf fun q => Spec.sqDist (A0 m c) (A1 m c) b (tilePt s r) q

theorem acc0 (c : Dev nD) (b : Fin 32) (q : Fin 2048) :
    (outsAt m c (pt b 0).val (pt b 0).isLt).2.1 (ix2 0 q) = colTile m c b 0 q := by
  rw [acc_first m c (pt b 0) (pt_mod b 0), pay7_eq]
  exact pay5_blk m c b 0 q

theorem sum0 (c : Dev nD) (b : Fin 32) :
    (outsAt m c (pt b 0).val (pt b 0).isLt).2.2 (ix2 0 0) = rowTile m c b 0 := by
  rw [sum_first m c (pt b 0) (pt_mod b 0), pay8_eq]
  exact pay6_blk m c b 0

theorem acc1 (c : Dev nD) (b : Fin 32) (q : Fin 2048) :
    (outsAt m c (pt b 1).val (pt b 1).isLt).2.1 (ix2 0 q) = min (colTile m c b 0 q) (colTile m c b 1 q) := by
  rw [acc_later m c (pt b 1) (by rw [pt_mod]; decide)]
  refine (pay1_apply _ _ q).trans ?_
  rw [pay5_blk, outsAt_congr m c (prevLt (pt b 1)) (pt b 0).isLt (by show 4 * b.val + 1 - 1 = 4 * b.val + 0; omega), acc0]

theorem sum1 (c : Dev nD) (b : Fin 32) :
    (outsAt m c (pt b 1).val (pt b 1).isLt).2.2 (ix2 0 0) = rowTile m c b 0 + rowTile m c b 1 := by
  rw [sum_later m c (pt b 1) (by rw [pt_mod]; decide)]
  refine (pay2_apply _ _).trans ?_
  rw [pay6_blk, outsAt_congr m c (prevLt (pt b 1)) (pt b 0).isLt (by show 4 * b.val + 1 - 1 = 4 * b.val + 0; omega), sum0]

theorem acc2 (c : Dev nD) (b : Fin 32) (q : Fin 2048) :
    (outsAt m c (pt b 2).val (pt b 2).isLt).2.1 (ix2 0 q) = min (min (colTile m c b 0 q) (colTile m c b 1 q)) (colTile m c b 2 q) := by
  rw [acc_later m c (pt b 2) (by rw [pt_mod]; decide)]
  refine (pay1_apply _ _ q).trans ?_
  rw [pay5_blk, outsAt_congr m c (prevLt (pt b 2)) (pt b 1).isLt (by show 4 * b.val + 2 - 1 = 4 * b.val + 1; omega), acc1]

theorem sum2 (c : Dev nD) (b : Fin 32) :
    (outsAt m c (pt b 2).val (pt b 2).isLt).2.2 (ix2 0 0) = (rowTile m c b 0 + rowTile m c b 1) + rowTile m c b 2 := by
  rw [sum_later m c (pt b 2) (by rw [pt_mod]; decide)]
  refine (pay2_apply _ _).trans ?_
  rw [pay6_blk, outsAt_congr m c (prevLt (pt b 2)) (pt b 1).isLt (by show 4 * b.val + 2 - 1 = 4 * b.val + 1; omega), sum1]

theorem acc3 (c : Dev nD) (b : Fin 32) (q : Fin 2048) :
    (outsAt m c (pt b 3).val (pt b 3).isLt).2.1 (ix2 0 q)
      = min (min (min (colTile m c b 0 q) (colTile m c b 1 q)) (colTile m c b 2 q)) (colTile m c b 3 q) := by
  rw [acc_later m c (pt b 3) (by rw [pt_mod]; decide)]
  refine (pay1_apply _ _ q).trans ?_
  rw [pay5_blk, outsAt_congr m c (prevLt (pt b 3)) (pt b 2).isLt (by show 4 * b.val + 3 - 1 = 4 * b.val + 2; omega), acc2]

theorem sum3 (c : Dev nD) (b : Fin 32) :
    (outsAt m c (pt b 3).val (pt b 3).isLt).2.2 (ix2 0 0) = ((rowTile m c b 0 + rowTile m c b 1) + rowTile m c b 2) + rowTile m c b 3 := by
  rw [sum_later m c (pt b 3) (by rw [pt_mod]; decide)]
  refine (pay2_apply _ _).trans ?_
  rw [pay6_blk, outsAt_congr m c (prevLt (pt b 3)) (pt b 2).isLt (by show 4 * b.val + 3 - 1 = 4 * b.val + 2; omega), sum2]

/-- After a batch's last tile the carried row is the column minimum over all the batch's rows. -/
theorem colMin_batch (c : Dev nD) (b : Fin 32) (q : Fin 2048) :
    (outsAt m c (pt b 3).val (pt b 3).isLt).2.1 (ix2 0 q)
      = (Finset.univ : Finset (Fin 2048)).inf fun n => Spec.sqDist (A0 m c) (A1 m c) b n q :=
  (acc3 m c b q).trans (inf_four_tiles_ereal (R := 512) (fun n => Spec.sqDist (A0 m c) (A1 m c) b n q)).symm

/-- After a batch's last tile the carried sum is the sum of the row minima over all the batch's rows. -/
theorem rowSum_batch (c : Dev nD) (b : Fin 32) :
    (outsAt m c (pt b 3).val (pt b 3).isLt).2.2 (ix2 0 0)
      = ∑ n : Fin 2048, (Finset.univ : Finset (Fin 2048)).inf fun q => Spec.sqDist (A0 m c) (A1 m c) b n q := by
  rw [sum3]
  refine Eq.symm ((sum_tiles (T := 4) (R := 512) (fun n => (Finset.univ : Finset (Fin 2048)).inf fun q => Spec.sqDist (A0 m c) (A1 m c) b n q)).trans ?_)
  rw [Fin.sum_univ_four]

/-- The output array's row `b`: lane 0 the batch's sum of row minima, lane 1 the batch's sum of column minima, the
    other lanes zero. -/
theorem Gout_apply (c : Dev nD) (b : Fin 32) (l : Fin 128) :
    Gout m c (ix3 b 0 l) = if l.val = 0 then ∑ n : Fin 2048, (Finset.univ : Finset (Fin 2048)).inf fun q => Spec.sqDist (A0 m c) (A1 m c) b n q
      else if l.val = 1 then ∑ q : Fin 2048, (Finset.univ : Finset (Fin 2048)).inf fun n => Spec.sqDist (A0 m c) (A1 m c) b n q else 0 := by
  show (outsAt m c (pt b 3).val (pt b 3).isLt).1 (ix3 0 0 l) = _
  rw [out_last m c (pt b 3) (pt_mod b 3)]
  refine (pay3_apply _ _ l).trans ?_
  rw [rowSum_batch]
  simp only [colMin_batch]

end Cert.KernelIdeal.KVal

end
-- ==== Proof.LibLane.lean ====
/-
  One lane of a `[n, 1, w]` array summed over its rows, as a host program writes it: reshape to `[n, w]`, slice the lane,
  reshape the column to a vector, sum. General lemmas over the library; no program.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LibLane

open Idealize.ShloMosaic Idealize.ShloMosaic.ValueIdx

section Layout
variable {α : Type}

/-- An `[a, 1]` column cast to `[a]` reads, at `i`, the column's entry `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Layout

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum of a vector over its one axis from the zero word, at the ideal instance: the sum of its entries. -/
theorem hostReduceAdd_vector {n : Nat} (x : (⟨1, ![n]⟩ : Shape).Idx → EReal)
    (h' : (⟨1, ![n]⟩ : Shape).ReducesTo [0] (⟨0, ![]⟩ : Shape)) (hu : 0 < (⟨0, ![]⟩ : Shape).numel) :
    Host.reduceAdd (F := Ideal) (φ := .f32) x (constant (⟨0, ![]⟩ : Shape) .f32 0x00000000#32) h' hu
      = fun _ => ∑ a : Fin n, x (ix1 a) := by
  funext i
  simp only [Host.reduceAdd, Ideal.hostReduceAdd_def]
  rw [Ideal.hostReduceAdd_total h' (fun b => b.elim0) x _ i, constant_apply, Ideal.ofBits_zero_f32, zero_add, sum_idx1]

end Cert.LibLane

end
-- ==== Proof.KernLane.lean ====
/-
  The host lines after the kernel's call: the output array [32, 1, 128] holds, for each batch entry, two numbers in lanes
  0 and 1; the host reshapes it to [32, 128], cuts out one lane, reshapes the column to a vector and sums it. At the ideal
  instance that is the sum over the batch entries of the array at (b, 0, lane).
-/
import proofs.«109606_j62749472194941_2_alg».proof.KernelIdeal
import proofs.«109606_j62749472194941_2_alg».proof.Proof.LibLane

noncomputable section

open scoped BigOperators

namespace Cert.KernelIdeal.LaneVal

open Cert.KernelIdeal Cert.KernelIdeal.Facts₀ Idealize.ShloMosaic Idealize.ShloMosaic.ValueIdx Cert.LibLane

variable [Cert.KernelIdeal.Facts]

/-- Lane 0 of the output array, summed over the batch entries. -/
theorem lane0 (G : S32x1x128.Idx → EReal) :
    Host.reduceAdd (F := Ideal) (φ := .f32)
        (shapeCast S32 (extractStridedSlice S32x1 ![0, 0] (shapeCast S32x128 G shapeCasts_S32x1x128_S32x128)
          slices_S32x128_S32x1_0_0) shapeCasts_S32x1_S32)
        (constant S_ .f32 0x00000000#32) reducesTo_S32_S_d0 h_S_
      = fun _ => ∑ b : Fin 32, G (ix3 b 0 0) := by
  refine (hostReduceAdd_vector _ _ _).trans ?_
  funext _
  refine Finset.sum_congr rfl fun b _ => ?_
  rw [shapeCast_a1_a_apply, slice2_axis1_eq, shapeCast_a1b_ab_apply]
  rfl

/-- Lane 1 of the output array, summed over the batch entries. -/
theorem lane1 (G : S32x1x128.Idx → EReal) :
    Host.reduceAdd (F := Ideal) (φ := .f32)
        (shapeCast S32 (extractStridedSlice S32x1 ![0, 1] (shapeCast S32x128 G shapeCasts_S32x1x128_S32x128)
          slices_S32x128_S32x1_0_1) shapeCasts_S32x1_S32)
        (constant S_ .f32 0x00000000#32) reducesTo_S32_S_d0 h_S_
      = fun _ => ∑ b : Fin 32, G (ix3 b 0 1) := by
  refine (hostReduceAdd_vector _ _ _).trans ?_
  funext _
  refine Finset.sum_congr rfl fun b _ => ?_
  rw [shapeCast_a1_a_apply, slice2_axis1_eq, shapeCast_a1b_ab_apply]
  rfl

end Cert.KernelIdeal.LaneVal

end
-- ==== Proof.RefValue.lean ====
/-
  The reference's two chamfer sums in closed form: at the ideal instance, the value the reference writes for the sum over
  the first cloud of least squared distances is `Spec.sumRowMin`, and for the second cloud `Spec.sumColMin`.

  The road: the array of squared distances read at (b, n, m) is `Spec.sqDist b n m` (the generated stage lemmas chained,
  the two leading zeros of the coordinate sums removed); a minimum-reduce from +∞ over one axis is, at the ideal
  instance, the least value over that axis's coordinates; the final sum over both remaining axes is the double sum.
-/
import proofs.«109606_j62749472194941_2_alg».proof.Proof.Gen.ReferenceIdeal.Read
import proofs.«109606_j62749472194941_2_alg».proof.Proof.Spec
import Idealize.ShloMosaic.PureOps.Reduce
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The array of squared distances, read at (b, n, m). -/
theorem v12_apply (x0 x1 : (⟨S32x2048x3, .f32⟩ : BufTy).Contents (Elt Ideal)) (b : Fin 32) (n m : Fin 2048) :
    val_main_v12 (F := Ideal) x0 x1 (ix3 b n m) = Spec.sqDist x0 x1 b n m := by
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v8_apply,
    val_main_v5_apply, val_main_v6_apply, val_main_v1_apply, val_main_v3_apply, val_main_v10_apply,
    val_main_cst_1_apply, val_main_v4_apply, val_main_cst_apply, val_main_cst_0_apply]
  simp only [val_main_v0_apply, val_main_v2_apply, e1, e3, el, er, Ideal.mulf_def, Ideal.addf_def, Ideal.subf_def,
    Ideal.ofBits_def, Ideal.ofBits_zero_f32, zero_add]
  rfl

/-! ## A minimum-reduce from +∞ over one axis is the least value over that axis -/

/-- Over result index (b, n), the source index of the reduce over the LAST axis with coordinate `k` put back is (b, n, k). -/
theorem lift_last (h : S32x2048x2048.Reduces [2] S32x2048) (b : Fin 32) (n : Fin 2048) (k : Fin (S32x2048x2048.size 2)) :
    h.lift (ix2 b n) k = ix3 b n (⟨k.val, k.isLt⟩ : Fin 2048) := by
  funext c; apply Fin.ext
  match c with
  | ⟨0, _⟩ => rfl
  | ⟨1, _⟩ => rfl
  | ⟨2, _⟩ => rfl

/-- Over result index (b, m), the source index of the reduce over the MIDDLE axis with coordinate `k` put back is (b, k, m). -/
theorem lift_mid (h : S32x2048x2048.Reduces [1] S32x2048) (b : Fin 32) (m : Fin 2048) (k : Fin (S32x2048x2048.size 1)) :
    h.lift (ix2 b m) k = ix3 b (⟨k.val, k.isLt⟩ : Fin 2048) m := by
  funext c; apply Fin.ext
  match c with
  | ⟨0, _⟩ => rfl
  | ⟨1, _⟩ => rfl
  | ⟨2, _⟩ => rfl

/-- The first minimum-reduce at (b, n): the least squared distance from point `n` of the first cloud to the second. -/
theorem v13_apply (x0 x1 : (⟨S32x2048x3, .f32⟩ : BufTy).Contents (Elt Ideal)) (b : Fin 32) (n : Fin 2048) :
    val_main_v13 (F := Ideal) x0 x1 (ix2 b n) = (Finset.univ : Finset (Fin 2048)).inf fun m => Spec.sqDist x0 x1 b n m := by
  have h : S32x2048x2048.Reduces [2] S32x2048 := by decide
  unfold val_main_v13
  rw [Host.reduce_eq_fold_single FloatOps.minimumf _ _ reducesTo_S32x2048x2048_S32x2048_d2 h h_S_]
  have hf : (val_main_v12 (F := Ideal) x0 x1 ∘ h.lift (ix2 b n)) = fun m : Fin 2048 => Spec.sqDist x0 x1 b n m :=
    funext fun k => (congrArg (val_main_v12 (F := Ideal) x0 x1) (lift_last h b n k)).trans (v12_apply x0 x1 b n _)
  rw [val_main_cst_2_apply, Ideal.ofBits_def, Spec.ofBits_posInf, Spec.inf_eq_fold_min]
  exact congrArg (fun f => Finset.fold min (⊤ : EReal) f (Finset.univ : Finset (Fin 2048))) hf

/-- The second minimum-reduce at (b, m): the least squared distance from point `m` of the second cloud to the first. -/
theorem v14_apply (x0 x1 : (⟨S32x2048x3, .f32⟩ : BufTy).Contents (Elt Ideal)) (b : Fin 32) (m : Fin 2048) :
    val_main_v14 (F := Ideal) x0 x1 (ix2 b m) = (Finset.univ : Finset (Fin 2048)).inf fun n => Spec.sqDist x0 x1 b n m := by
  have h : S32x2048x2048.Reduces [1] S32x2048 := by decide
  unfold val_main_v14
  rw [Host.reduce_eq_fold_single FloatOps.minimumf _ _ reducesTo_S32x2048x2048_S32x2048_d1 h h_S_]
  have hf : (val_main_v12 (F := Ideal) x0 x1 ∘ h.lift (ix2 b m)) = fun n : Fin 2048 => Spec.sqDist x0 x1 b n m :=
    funext fun k => (congrArg (val_main_v12 (F := Ideal) x0 x1) (lift_mid h b m k)).trans (v12_apply x0 x1 b _ m)
  rw [val_main_cst_3_apply, Ideal.ofBits_def, Spec.ofBits_posInf, Spec.inf_eq_fold_min]
  exact congrArg (fun f => Finset.fold min (⊤ : EReal) f (Finset.univ : Finset (Fin 2048))) hf

/-! ## The two sums over both remaining axes -/

/-- The first chamfer sum as the reference writes it, with the reduce's zero initial value in front. -/
theorem v15_eq_zero_add (x0 x1 : (⟨S32x2048x3, .f32⟩ : BufTy).Contents (Elt Ideal)) :
    val_main_v15 (F := Ideal) x0 x1 = fun _ => Ideal.ofBits .f32 0x00000000#32 + Spec.sumRowMin x0 x1 := by
  funext i
  rw [val_main_v15_apply, val_main_cst_4_apply, Ideal.ofBits_def, sum_idx2]
  refine congrArg (_ + ·) ?_
  exact Finset.sum_congr rfl fun b _ => Finset.sum_congr rfl fun n _ => v13_apply x0 x1 b n

/-- THE FIRST CHAMFER SUM: the reference's sum over the first cloud of least squared distances is `Spec.sumRowMin`. -/
theorem v15_eq (x0 x1 : (⟨S32x2048x3, .f32⟩ : BufTy).Contents (Elt Ideal)) :
    val_main_v15 (F := Ideal) x0 x1 = fun _ => Spec.sumRowMin x0 x1 := by
  rw [v15_eq_zero_add]
  funext _
  rw [Ideal.ofBits_zero_f32, zero_add]

/-- The second chamfer sum as the reference writes it, with the reduce's zero initial value in front. -/
theorem v17_eq_zero_add (x0 x1 : (⟨S32x2048x3, .f32⟩ : BufTy).Contents (Elt Ideal)) :
    val_main_v17 (F := Ideal) x0 x1 = fun _ => Ideal.ofBits .f32 0x00000000#32 + Spec.sumColMin x0 x1 := by
  funext i
  rw [val_main_v17_apply, val_main_cst_6_apply, Ideal.ofBits_def, sum_idx2]
  refine congrArg (_ + ·) ?_
  exact Finset.sum_congr rfl fun b _ => Finset.sum_congr rfl fun m _ => v14_apply x0 x1 b m

/-- THE SECOND CHAMFER SUM: the reference's sum over the second cloud of least squared distances is `Spec.sumColMin`. -/
theorem v17_eq (x0 x1 : (⟨S32x2048x3, .f32⟩ : BufTy).Contents (Elt Ideal)) :
    val_main_v17 (F := Ideal) x0 x1 = fun _ => Spec.sumColMin x0 x1 := by
  rw [v17_eq_zero_add]
  funext _
  rw [Ideal.ofBits_zero_f32, zero_add]

end Cert.ReferenceIdeal.RefValue

end
-- ==== Proof.KernSums.lean ====
/-
  The two sums the host lines take of the output array are the specification's: lane 0 summed over the batches is the
  sum over all batches and rows of the row minima, lane 1 the sum over all batches and columns of the column minima. So
  the chamfer term after the run is the reference's own stage of the same two arguments.
-/
import proofs.«109606_j62749472194941_2_alg».proof.Proof.KernValue
import proofs.«109606_j62749472194941_2_alg».proof.Proof.KernLane
import proofs.«109606_j62749472194941_2_alg».proof.Proof.RefValue

set_option maxRecDepth 16384

noncomputable section

namespace Cert.KernelIdeal.KVal

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

open Idealize.ShloMosaic.ValueIdx

variable (m : (ℓ : Loc nD τ sig) → Buf (Elt Ideal) ℓ)

/-- Lane 0 of the output array, summed over the batches, is the sum of all row minima. -/
theorem lane0_eq (c : Dev nD) :
    laneSum (F := Ideal) ![0, 0] slices_S32x128_S32x1_0_0 (Gout m c) = fun _ => Spec.sumRowMin (A0 m c) (A1 m c) := by
  unfold laneSum
  rw [Cert.KernelIdeal.LaneVal.lane0]
  funext _
  unfold Spec.sumRowMin
  refine Finset.sum_congr rfl fun b _ => ?_
  rw [Gout_apply m c b 0]
  exact if_pos rfl

/-- Lane 1 of the output array, summed over the batches, is the sum of all column minima. -/
theorem lane1_eq (c : Dev nD) :
    laneSum (F := Ideal) ![0, 1] slices_S32x128_S32x1_0_1 (Gout m c) = fun _ => Spec.sumColMin (A0 m c) (A1 m c) := by
  unfold laneSum
  rw [Cert.KernelIdeal.LaneVal.lane1]
  funext _
  unfold Spec.sumColMin
  refine Finset.sum_congr rfl fun b _ => ?_
  rw [Gout_apply m c b 1]
  exact (if_neg (by decide)).trans (if_pos rfl)

/-- The chamfer term after the run is the reference's stage of `inst_shape` and `model`. -/
theorem cd_eq (c : Dev nD) :
    Pipeline.afterTail₀ cfgs (dats m) 0 (V0 m) [hostOps1, hostOps1_1, hostOps1_2, hostOps1_3, hostOps1_4] c main_v11
      = Cert.ReferenceIdeal.Read.val_main_v19 (F := Ideal) (m ((c : Thread nD τ).loc main_arg0)) (m ((c : Thread nD τ).loc main_arg1)) := by
  rw [tail11, lane0_eq, lane1_eq]
  unfold Cert.ReferenceIdeal.Read.val_main_v19 Cert.ReferenceIdeal.Read.val_main_v16 Cert.ReferenceIdeal.Read.val_main_v18
  rw [Cert.ReferenceIdeal.RefValue.v15_eq, Cert.ReferenceIdeal.RefValue.v17_eq]
  rfl

/-- The total after the run is the reference's stage of the four arguments. -/
theorem tot_eq (c : Dev nD) :
    Pipeline.afterTail₀ cfgs (dats m) 0 (V0 m) [hostOps1, hostOps1_1, hostOps1_2, hostOps1_3, hostOps1_4] c main_v21
      = Cert.ReferenceIdeal.Read.val_main_v29 (F := Ideal) (m ((c : Thread nD τ).loc main_arg0)) (m ((c : Thread nD τ).loc main_arg1))
          (m ((c : Thread nD τ).loc main_arg2)) (m ((c : Thread nD τ).loc main_arg3)) := by
  rw [tail21, cd_eq, tail18]
  rfl

end Cert.KernelIdeal.KVal

end
-- ==== Proof.Claims.lean ====
/-
  The claims. Both kernel programs run to the end, fault nowhere and leave their arguments unchanged (the frames of the
  two body modules); the reference's frame is its generated run with the results dropped; the idealization rewrote
  nothing. At the extended reals the kernel's three results — the total, the chamfer term, the cross entropy — are what the
  lines after the region compute from the output array and from `pred` and `gt`, and each is the reference's stage of
  the same arguments: the chamfer term because a minimum over all rows is the minimum over the four tiles of the tiles'
  minima and a sum over all rows the sum over the four tiles of the tiles' sums; the cross entropy because its host lines
  are the reference's, word for word; the total because it is the same weighted sum of the two.
-/
import proofs.«109606_j62749472194941_2_alg».proof.Defs
import proofs.«109606_j62749472194941_2_alg».proof.Proof.Gen.Pre_finite_inputs
import proofs.«109606_j62749472194941_2_alg».proof.Proof.BodyBFrame
import proofs.«109606_j62749472194941_2_alg».proof.Proof.KernSums

set_option maxRecDepth 16384

noncomputable section

namespace Cert.Proof.Claims

open Idealize.ShloMosaic Idealize.ShloMosaic.TcCoe Idealize.SL.Sem
open Idealize.ShloMosaic.Pipeline (Dat)

theorem frame_p : Cert.frame_Kernel := fun m ρ _ => Cert.Kernel.Body.frame m ρ
theorem frame_pi : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

section
open Cert.KernelIdeal Cert.KernelIdeal.Gen Cert.KernelIdeal.Body Cert.KernelIdeal.KVal

set_option maxHeartbeats 4000000 in
theorem algebraic : Cert.algebraic_KernelIdeal_ReferenceIdeal := by
  intro m ρ m' ρ' _ hagree
  refine ⟨fun c => Pipeline.afterTail₀ cfgs (dats m) 0 (V0 m) [hostOps1, hostOps1_1, hostOps1_2, hostOps1_3, hostOps1_4] c main_v21,
    fun c => Pipeline.afterTail₀ cfgs (dats m) 0 (V0 m) [hostOps1, hostOps1_1, hostOps1_2, hostOps1_3, hostOps1_4] c main_v11,
    fun c => Pipeline.afterTail₀ cfgs (dats m) 0 (V0 m) [hostOps1, hostOps1_1, hostOps1_2, hostOps1_3, hostOps1_4] c main_v18, ?_, ?_⟩
  · refine (θ_run Cert.KernelIdeal.defs _ _).mono (fun r h c => ?_) (Cert.KernelIdeal.Body.run_main m ρ)
    exact ⟨(h c).2 main_v21 (Pipeline.mem_restRefs_of main_v21 (by decide) (by decide)),
      (h c).2 main_v11 (Pipeline.mem_restRefs_of main_v11 (by decide) (by decide)),
      (h c).2 main_v18 (Pipeline.mem_restRefs_of main_v18 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩
  · refine (θ_run Cert.ReferenceIdeal.defs _ _).mono (fun r h c => ?_) (Cert.ReferenceIdeal.Value.run (F := Ideal) m' ρ')
    obtain ⟨h29, h19, h26, ha0, ha1, ha2, ha3⟩ := h c
    obtain ⟨e0, e1, e2, e3⟩ := hagree c
    refine ⟨h29.trans ?_, h19.trans ?_, h26.trans ?_, ha0, ha1, ha2, ha3⟩
    · rw [Cert.ReferenceIdeal.Read.val_main_v29_eq, e0, e1, e2, e3]
      exact (tot_eq m c).symm
    · rw [Cert.ReferenceIdeal.Read.val_main_v19_eq, e0, e1]
      exact (cd_eq m c).symm
    · rw [Cert.ReferenceIdeal.Read.val_main_v26_eq, e2, e3]
      exact (tail18 m c).symm
end

end Cert.Proof.Claims

end
-- ==== Proof.lean ====
/-
  A chamfer loss plus a cross entropy. For two clouds of 2048 points in each of 32 batches, with
  d(b, n, m) = |a(b,n)|² + |c(b,m)|² − 2 ⟨a(b,n), c(b,m)⟩, the chamfer term is the mean over (b, n) of the minimum over m of
  d plus the mean over (b, m) of the minimum over n of d. The kernel visits each batch in four tiles of 512 rows n,
  carrying the running column minimum and the running sum of row minima from tile to tile, and writes at the batch's last
  tile one row holding the two per-batch sums; the host then sums the rows and divides by 65536 = 32 · 2048. Over the
  extended reals a minimum over 2048 rows is the minimum of the four tiles' minima and a sum over 2048 rows the sum of the
  four tiles' sums, whatever the values: the two sides agree by associativity and commutativity of + and min alone. The
  cross entropy and the final weighted sum are the same host operations in both programs.
-/
import proofs.«109606_j62749472194941_2_alg».proof.Defs
import proofs.«109606_j62749472194941_2_alg».proof.Proof.Gen.Kernel
import proofs.«109606_j62749472194941_2_alg».proof.Proof.Gen.KernelIdeal
import proofs.«109606_j62749472194941_2_alg».proof.Proof.Gen.ReferenceIdeal
import proofs.«109606_j62749472194941_2_alg».proof.Proof.Gen.Pre_finite_inputs
import proofs.«109606_j62749472194941_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
